-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x28x256x256 : Shape := ⟨4, ![32, 28, 256, 256]⟩
abbrev S28x256x256 : Shape := ⟨3, ![28, 256, 256]⟩
abbrev S_ : Shape := ⟨0, ![]⟩

class Facts : Prop where
  bcast_S_S32x28x256x256 : S_.BroadcastsInDim S32x28x256x256 (![] : Fin 0 → Fin S32x28x256x256.rank)
  reducesTo_S32x28x256x256_S_d0_1_2_3 : S32x28x256x256.ReducesTo [0, 1, 2, 3] S_
  h_S_ : 0 < S_.numel
  bcast_S_S28x256x256 : S_.BroadcastsInDim S28x256x256 (![] : Fin 0 → Fin S28x256x256.rank)
  reducesTo_S28x256x256_S_d0_1_2 : S28x256x256.ReducesTo [0, 1, 2] S_

variable [Facts]

def fn {F : FTy → Type} [FloatOps F] (main_arg0 : FVec F S32x28x256x256 .f32) (main_arg1 : FVec F S28x256x256 .f32) : IVec S_ 1 :=
  let main_v0 : FVec F S32x28x256x256 .f32 := Host.absf main_arg0
  let main_cst : FVec F S_ .f32 := constant S_ .f32 0x7F800000#32
  let main_v1 : FVec F S32x28x256x256 .f32 := broadcastInDim S32x28x256x256 ![] bcast_S_S32x28x256x256 main_cst
  let main_v2 : IVec S32x28x256x256 1 := cmpf .olt main_v0 main_v1
  let main_c : IVec S_ 1 := constantI S_ 1 1#1
  let main_v3 : IVec S_ 1 := (fun x v => Host.reduce IntOp.andi x v reducesTo_S32x28x256x256_S_d0_1_2_3 h_S_) main_v2 main_c
  let main_v4 : FVec F S28x256x256 .f32 := Host.absf main_arg1
  let main_cst_0 : FVec F S_ .f32 := constant S_ .f32 0x7F800000#32
  let main_v5 : FVec F S28x256x256 .f32 := broadcastInDim S28x256x256 ![] bcast_S_S28x256x256 main_cst_0
  let main_v6 : IVec S28x256x256 1 := cmpf .olt main_v4 main_v5
  let main_c_1 : IVec S_ 1 := constantI S_ 1 1#1
  let main_v7 : IVec S_ 1 := (fun x v => Host.reduce IntOp.andi x v reducesTo_S28x256x256_S_d0_1_2 h_S_) main_v6 main_c_1
  let main_v8 : IVec S_ 1 := andi main_v3 main_v7
  main_v8
-- ==== Kernel.lean ====
abbrev S32x28x256x256 : Shape := ⟨4, ![32, 28, 256, 256]⟩
abbrev S28x256x256 : Shape := ⟨3, ![28, 256, 256]⟩
abbrev S1x28x128x256 : Shape := ⟨4, ![1, 28, 128, 256]⟩
abbrev S28x128x256 : Shape := ⟨3, ![28, 128, 256]⟩
abbrev S128x384 : Shape := ⟨2, ![128, 384]⟩
abbrev S128x256 : Shape := ⟨2, ![128, 256]⟩
abbrev S1x128x256 : Shape := ⟨3, ![1, 128, 256]⟩
abbrev S1x1x128x256 : Shape := ⟨4, ![1, 1, 128, 256]⟩

abbrev nBuf : Space → Nat
  | .hbm => 3
  | .vmem => 7
  | .smem => 0
  | _ => 0

abbrev bufTy : (tb : Table) → Fin (tcTables nBuf tb) → BufTy
  | .hbm, ⟨0, _⟩ => ⟨S32x28x256x256, .f32⟩
  | .hbm, ⟨1, _⟩ => ⟨S28x256x256, .f32⟩
  | .hbm, ⟨2, _⟩ => ⟨S32x28x256x256, .f32⟩
  | .local _ .vmem, ⟨0, _⟩ => ⟨S1x28x128x256, .f32⟩
  | .local _ .vmem, ⟨1, _⟩ => ⟨S1x28x128x256, .f32⟩
  | .local _ .vmem, ⟨2, _⟩ => ⟨S28x128x256, .f32⟩
  | .local _ .vmem, ⟨3, _⟩ => ⟨S28x128x256, .f32⟩
  | .local _ .vmem, ⟨4, _⟩ => ⟨S1x28x128x256, .f32⟩
  | .local _ .vmem, ⟨5, _⟩ => ⟨S1x28x128x256, .f32⟩
  | .local _ .vmem, ⟨6, _⟩ => ⟨S128x384, .f32⟩
  | _, _ => ⟨S32x28x256x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 32], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, arg0.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, arg0.toNat, c0_i32_0.toNat]

abbrev stage0_0 : Fin 2 → Memref sig .tc .vmem S1x28x128x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S28x128x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x28x128x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  inb_S128x384_S128x384_0_0 : ∀ a, (![0, 0] : Fin 2 → Nat) a + S128x384.size a ≤ S128x384.size a
  h_S128x384 : 0 < S128x384.numel
  shapeCasts_S128x384_S128x384 : S128x384.ShapeCasts S128x384
  inb_S1x28x128x256_S1x28x128x256_0_0_0_0 : ∀ a, (![0, 0, 0, 0] : Fin 4 → Nat) a + S1x28x128x256.size a ≤ S1x28x128x256.size a
  h_S1x28x128x256 : 0 < S1x28x128x256.numel
  shapeCasts_S1x28x128x256_S28x128x256 : S1x28x128x256.ShapeCasts S28x128x256
  inb_S28x128x256_S28x128x256_0_0_0 : ∀ a, (![0, 0, 0] : Fin 3 → Nat) a + S28x128x256.size a ≤ S28x128x256.size a
  h_S28x128x256 : 0 < S28x128x256.numel
  inb_S128x384_S128x256_0_0 : ∀ a, (![0, 0] : Fin 2 → Nat) a + S128x256.size a ≤ S128x384.size a
  h_S128x256 : 0 < S128x256.numel
  slices_S28x128x256_o0_0_0_S1x128x256 : S28x128x256.Slices ![0, 0, 0] S1x128x256
  shapeCasts_S1x128x256_S128x256 : S1x128x256.ShapeCasts S128x256
  shapeCasts_S128x256_S128x256 : S128x256.ShapeCasts S128x256
  inb_S128x384_S128x256_0_2 : ∀ a, (![0, 2] : Fin 2 → Nat) a + S128x256.size a ≤ S128x384.size a
  slices_S28x128x256_o1_0_0_S1x128x256 : S28x128x256.Slices ![1, 0, 0] S1x128x256
  inb_S128x384_S128x256_0_4 : ∀ a, (![0, 4] : Fin 2 → Nat) a + S128x256.size a ≤ S128x384.size a
  slices_S28x128x256_o2_0_0_S1x128x256 : S28x128x256.Slices ![2, 0, 0] S1x128x256
  inb_S128x384_S128x256_0_6 : ∀ a, (![0, 6] : Fin 2 → Nat) a + S128x256.size a ≤ S128x384.size a
  slices_S28x128x256_o3_0_0_S1x128x256 : S28x128x256.Slices ![3, 0, 0] S1x128x256
  inb_S128x384_S128x256_0_8 : ∀ a, (![0, 8] : Fin 2 → Nat) a + S128x256.size a ≤ S128x384.size a
  slices_S28x128x256_o4_0_0_S1x128x256 : S28x128x256.Slices ![4, 0, 0] S1x128x256
  inb_S128x384_S128x256_0_10 : ∀ a, (![0, 10] : Fin 2 → Nat) a + S128x256.size a ≤ S128x384.size a
  slices_S28x128x256_o5_0_0_S1x128x256 : S28x128x256.Slices ![5, 0, 0] S1x128x256
  inb_S128x384_S128x256_0_12 : ∀ a, (![0, 12] : Fin 2 → Nat) a + S128x256.size a ≤ S128x384.size a
  slices_S28x128x256_o6_0_0_S1x128x256 : S28x128x256.Slices ![6, 0, 0] S1x128x256
  inb_S128x384_S128x256_0_14 : ∀ a, (![0, 14] : Fin 2 → Nat) a + S128x256.size a ≤ S128x384.size a
  slices_S28x128x256_o7_0_0_S1x128x256 : S28x128x256.Slices ![7, 0, 0] S1x128x256
  inb_S128x384_S128x256_0_16 : ∀ a, (![0, 16] : Fin 2 → Nat) a + S128x256.size a ≤ S128x384.size a
  slices_S28x128x256_o8_0_0_S1x128x256 : S28x128x256.Slices ![8, 0, 0] S1x128x256
  inb_S128x384_S128x256_0_18 : ∀ a, (![0, 18] : Fin 2 → Nat) a + S128x256.size a ≤ S128x384.size a
  slices_S28x128x256_o9_0_0_S1x128x256 : S28x128x256.Slices ![9, 0, 0] S1x128x256
  inb_S128x384_S128x256_0_20 : ∀ a, (![0, 20] : Fin 2 → Nat) a + S128x256.size a ≤ S128x384.size a
  slices_S28x128x256_o10_0_0_S1x128x256 : S28x128x256.Slices ![10, 0, 0] S1x128x256
  inb_S128x384_S128x256_0_22 : ∀ a, (![0, 22] : Fin 2 → Nat) a + S128x256.size a ≤ S128x384.size a
  slices_S28x128x256_o11_0_0_S1x128x256 : S28x128x256.Slices ![11, 0, 0] S1x128x256
  inb_S128x384_S128x256_0_24 : ∀ a, (![0, 24] : Fin 2 → Nat) a + S128x256.size a ≤ S128x384.size a
  slices_S28x128x256_o12_0_0_S1x128x256 : S28x128x256.Slices ![12, 0, 0] S1x128x256
  inb_S128x384_S128x256_0_26 : ∀ a, (![0, 26] : Fin 2 → Nat) a + S128x256.size a ≤ S128x384.size a
  slices_S28x128x256_o13_0_0_S1x128x256 : S28x128x256.Slices ![13, 0, 0] S1x128x256
  inb_S128x384_S128x256_0_28 : ∀ a, (![0, 28] : Fin 2 → Nat) a + S128x256.size a ≤ S128x384.size a
  slices_S28x128x256_o14_0_0_S1x128x256 : S28x128x256.Slices ![14, 0, 0] S1x128x256
  inb_S128x384_S128x256_0_30 : ∀ a, (![0, 30] : Fin 2 → Nat) a + S128x256.size a ≤ S128x384.size a
  slices_S28x128x256_o15_0_0_S1x128x256 : S28x128x256.Slices ![15, 0, 0] S1x128x256
  inb_S128x384_S128x256_0_32 : ∀ a, (![0, 32] : Fin 2 → Nat) a + S128x256.size a ≤ S128x384.size a
  slices_S28x128x256_o16_0_0_S1x128x256 : S28x128x256.Slices ![16, 0, 0] S1x128x256
  inb_S128x384_S128x256_0_34 : ∀ a, (![0, 34] : Fin 2 → Nat) a + S128x256.size a ≤ S128x384.size a
  slices_S28x128x256_o17_0_0_S1x128x256 : S28x128x256.Slices ![17, 0, 0] S1x128x256
  inb_S128x384_S128x256_0_36 : ∀ a, (![0, 36] : Fin 2 → Nat) a + S128x256.size a ≤ S128x384.size a
  slices_S28x128x256_o18_0_0_S1x128x256 : S28x128x256.Slices ![18, 0, 0] S1x128x256
  inb_S128x384_S128x256_0_38 : ∀ a, (![0, 38] : Fin 2 → Nat) a + S128x256.size a ≤ S128x384.size a
  slices_S28x128x256_o19_0_0_S1x128x256 : S28x128x256.Slices ![19, 0, 0] S1x128x256
  inb_S128x384_S128x256_0_40 : ∀ a, (![0, 40] : Fin 2 → Nat) a + S128x256.size a ≤ S128x384.size a
  slices_S28x128x256_o20_0_0_S1x128x256 : S28x128x256.Slices ![20, 0, 0] S1x128x256
  inb_S128x384_S128x256_0_42 : ∀ a, (![0, 42] : Fin 2 → Nat) a + S128x256.size a ≤ S128x384.size a
  slices_S28x128x256_o21_0_0_S1x128x256 : S28x128x256.Slices ![21, 0, 0] S1x128x256
  inb_S128x384_S128x256_0_44 : ∀ a, (![0, 44] : Fin 2 → Nat) a + S128x256.size a ≤ S128x384.size a
  slices_S28x128x256_o22_0_0_S1x128x256 : S28x128x256.Slices ![22, 0, 0] S1x128x256
  inb_S128x384_S128x256_0_46 : ∀ a, (![0, 46] : Fin 2 → Nat) a + S128x256.size a ≤ S128x384.size a
  slices_S28x128x256_o23_0_0_S1x128x256 : S28x128x256.Slices ![23, 0, 0] S1x128x256
  inb_S128x384_S128x256_0_48 : ∀ a, (![0, 48] : Fin 2 → Nat) a + S128x256.size a ≤ S128x384.size a
  slices_S28x128x256_o24_0_0_S1x128x256 : S28x128x256.Slices ![24, 0, 0] S1x128x256
  inb_S128x384_S128x256_0_50 : ∀ a, (![0, 50] : Fin 2 → Nat) a + S128x256.size a ≤ S128x384.size a
  slices_S28x128x256_o25_0_0_S1x128x256 : S28x128x256.Slices ![25, 0, 0] S1x128x256
  inb_S128x384_S128x256_0_52 : ∀ a, (![0, 52] : Fin 2 → Nat) a + S128x256.size a ≤ S128x384.size a
  slices_S28x128x256_o26_0_0_S1x128x256 : S28x128x256.Slices ![26, 0, 0] S1x128x256
  inb_S128x384_S128x256_0_54 : ∀ a, (![0, 54] : Fin 2 → Nat) a + S128x256.size a ≤ S128x384.size a
  slices_S28x128x256_o27_0_0_S1x128x256 : S28x128x256.Slices ![27, 0, 0] S1x128x256
  inb_S28x128x256_S1x128x256_0_0_0 : ∀ a, (![0, 0, 0] : Fin 3 → Nat) a + S1x128x256.size a ≤ S28x128x256.size a
  h_S1x128x256 : 0 < S1x128x256.numel
  inb_S1x28x128x256_S1x1x128x256_0_0_0_0 : ∀ a, (![0, 0, 0, 0] : Fin 4 → Nat) a + S1x1x128x256.size a ≤ S1x28x128x256.size a
  h_S1x1x128x256 : 0 < S1x1x128x256.numel
  shapeCasts_S1x1x128x256_S128x256 : S1x1x128x256.ShapeCasts S128x256
  shapeCasts_S128x256_S1x1x128x256 : S128x256.ShapeCasts S1x1x128x256
  inb_S28x128x256_S1x128x256_1_0_0 : ∀ a, (![1, 0, 0] : Fin 3 → Nat) a + S1x128x256.size a ≤ S28x128x256.size a
  inb_S1x28x128x256_S1x1x128x256_0_1_0_0 : ∀ a, (![0, 1, 0, 0] : Fin 4 → Nat) a + S1x1x128x256.size a ≤ S1x28x128x256.size a
  inb_S28x128x256_S1x128x256_2_0_0 : ∀ a, (![2, 0, 0] : Fin 3 → Nat) a + S1x128x256.size a ≤ S28x128x256.size a
  inb_S1x28x128x256_S1x1x128x256_0_2_0_0 : ∀ a, (![0, 2, 0, 0] : Fin 4 → Nat) a + S1x1x128x256.size a ≤ S1x28x128x256.size a
  inb_S28x128x256_S1x128x256_3_0_0 : ∀ a, (![3, 0, 0] : Fin 3 → Nat) a + S1x128x256.size a ≤ S28x128x256.size a
  inb_S1x28x128x256_S1x1x128x256_0_3_0_0 : ∀ a, (![0, 3, 0, 0] : Fin 4 → Nat) a + S1x1x128x256.size a ≤ S1x28x128x256.size a
  inb_S28x128x256_S1x128x256_4_0_0 : ∀ a, (![4, 0, 0] : Fin 3 → Nat) a + S1x128x256.size a ≤ S28x128x256.size a
  inb_S1x28x128x256_S1x1x128x256_0_4_0_0 : ∀ a, (![0, 4, 0, 0] : Fin 4 → Nat) a + S1x1x128x256.size a ≤ S1x28x128x256.size a
  inb_S28x128x256_S1x128x256_5_0_0 : ∀ a, (![5, 0, 0] : Fin 3 → Nat) a + S1x128x256.size a ≤ S28x128x256.size a
  inb_S1x28x128x256_S1x1x128x256_0_5_0_0 : ∀ a, (![0, 5, 0, 0] : Fin 4 → Nat) a + S1x1x128x256.size a ≤ S1x28x128x256.size a
  inb_S28x128x256_S1x128x256_6_0_0 : ∀ a, (![6, 0, 0] : Fin 3 → Nat) a + S1x128x256.size a ≤ S28x128x256.size a
  inb_S1x28x128x256_S1x1x128x256_0_6_0_0 : ∀ a, (![0, 6, 0, 0] : Fin 4 → Nat) a + S1x1x128x256.size a ≤ S1x28x128x256.size a
  inb_S28x128x256_S1x128x256_7_0_0 : ∀ a, (![7, 0, 0] : Fin 3 → Nat) a + S1x128x256.size a ≤ S28x128x256.size a
  inb_S1x28x128x256_S1x1x128x256_0_7_0_0 : ∀ a, (![0, 7, 0, 0] : Fin 4 → Nat) a + S1x1x128x256.size a ≤ S1x28x128x256.size a
  inb_S28x128x256_S1x128x256_8_0_0 : ∀ a, (![8, 0, 0] : Fin 3 → Nat) a + S1x128x256.size a ≤ S28x128x256.size a
  inb_S1x28x128x256_S1x1x128x256_0_8_0_0 : ∀ a, (![0, 8, 0, 0] : Fin 4 → Nat) a + S1x1x128x256.size a ≤ S1x28x128x256.size a
  inb_S28x128x256_S1x128x256_9_0_0 : ∀ a, (![9, 0, 0] : Fin 3 → Nat) a + S1x128x256.size a ≤ S28x128x256.size a
  inb_S1x28x128x256_S1x1x128x256_0_9_0_0 : ∀ a, (![0, 9, 0, 0] : Fin 4 → Nat) a + S1x1x128x256.size a ≤ S1x28x128x256.size a
  inb_S28x128x256_S1x128x256_10_0_0 : ∀ a, (![10, 0, 0] : Fin 3 → Nat) a + S1x128x256.size a ≤ S28x128x256.size a
  inb_S1x28x128x256_S1x1x128x256_0_10_0_0 : ∀ a, (![0, 10, 0, 0] : Fin 4 → Nat) a + S1x1x128x256.size a ≤ S1x28x128x256.size a
  inb_S28x128x256_S1x128x256_11_0_0 : ∀ a, (![11, 0, 0] : Fin 3 → Nat) a + S1x128x256.size a ≤ S28x128x256.size a
  inb_S1x28x128x256_S1x1x128x256_0_11_0_0 : ∀ a, (![0, 11, 0, 0] : Fin 4 → Nat) a + S1x1x128x256.size a ≤ S1x28x128x256.size a
  inb_S28x128x256_S1x128x256_12_0_0 : ∀ a, (![12, 0, 0] : Fin 3 → Nat) a + S1x128x256.size a ≤ S28x128x256.size a
  inb_S1x28x128x256_S1x1x128x256_0_12_0_0 : ∀ a, (![0, 12, 0, 0] : Fin 4 → Nat) a + S1x1x128x256.size a ≤ S1x28x128x256.size a
  inb_S28x128x256_S1x128x256_13_0_0 : ∀ a, (![13, 0, 0] : Fin 3 → Nat) a + S1x128x256.size a ≤ S28x128x256.size a
  inb_S1x28x128x256_S1x1x128x256_0_13_0_0 : ∀ a, (![0, 13, 0, 0] : Fin 4 → Nat) a + S1x1x128x256.size a ≤ S1x28x128x256.size a
  inb_S28x128x256_S1x128x256_14_0_0 : ∀ a, (![14, 0, 0] : Fin 3 → Nat) a + S1x128x256.size a ≤ S28x128x256.size a
  inb_S1x28x128x256_S1x1x128x256_0_14_0_0 : ∀ a, (![0, 14, 0, 0] : Fin 4 → Nat) a + S1x1x128x256.size a ≤ S1x28x128x256.size a
  inb_S28x128x256_S1x128x256_15_0_0 : ∀ a, (![15, 0, 0] : Fin 3 → Nat) a + S1x128x256.size a ≤ S28x128x256.size a
  inb_S1x28x128x256_S1x1x128x256_0_15_0_0 : ∀ a, (![0, 15, 0, 0] : Fin 4 → Nat) a + S1x1x128x256.size a ≤ S1x28x128x256.size a
  inb_S28x128x256_S1x128x256_16_0_0 : ∀ a, (![16, 0, 0] : Fin 3 → Nat) a + S1x128x256.size a ≤ S28x128x256.size a
  inb_S1x28x128x256_S1x1x128x256_0_16_0_0 : ∀ a, (![0, 16, 0, 0] : Fin 4 → Nat) a + S1x1x128x256.size a ≤ S1x28x128x256.size a
  inb_S28x128x256_S1x128x256_17_0_0 : ∀ a, (![17, 0, 0] : Fin 3 → Nat) a + S1x128x256.size a ≤ S28x128x256.size a
  inb_S1x28x128x256_S1x1x128x256_0_17_0_0 : ∀ a, (![0, 17, 0, 0] : Fin 4 → Nat) a + S1x1x128x256.size a ≤ S1x28x128x256.size a
  inb_S28x128x256_S1x128x256_18_0_0 : ∀ a, (![18, 0, 0] : Fin 3 → Nat) a + S1x128x256.size a ≤ S28x128x256.size a
  inb_S1x28x128x256_S1x1x128x256_0_18_0_0 : ∀ a, (![0, 18, 0, 0] : Fin 4 → Nat) a + S1x1x128x256.size a ≤ S1x28x128x256.size a
  inb_S28x128x256_S1x128x256_19_0_0 : ∀ a, (![19, 0, 0] : Fin 3 → Nat) a + S1x128x256.size a ≤ S28x128x256.size a
  inb_S1x28x128x256_S1x1x128x256_0_19_0_0 : ∀ a, (![0, 19, 0, 0] : Fin 4 → Nat) a + S1x1x128x256.size a ≤ S1x28x128x256.size a
  inb_S28x128x256_S1x128x256_20_0_0 : ∀ a, (![20, 0, 0] : Fin 3 → Nat) a + S1x128x256.size a ≤ S28x128x256.size a
  inb_S1x28x128x256_S1x1x128x256_0_20_0_0 : ∀ a, (![0, 20, 0, 0] : Fin 4 → Nat) a + S1x1x128x256.size a ≤ S1x28x128x256.size a
  inb_S28x128x256_S1x128x256_21_0_0 : ∀ a, (![21, 0, 0] : Fin 3 → Nat) a + S1x128x256.size a ≤ S28x128x256.size a
  inb_S1x28x128x256_S1x1x128x256_0_21_0_0 : ∀ a, (![0, 21, 0, 0] : Fin 4 → Nat) a + S1x1x128x256.size a ≤ S1x28x128x256.size a
  inb_S28x128x256_S1x128x256_22_0_0 : ∀ a, (![22, 0, 0] : Fin 3 → Nat) a + S1x128x256.size a ≤ S28x128x256.size a
  inb_S1x28x128x256_S1x1x128x256_0_22_0_0 : ∀ a, (![0, 22, 0, 0] : Fin 4 → Nat) a + S1x1x128x256.size a ≤ S1x28x128x256.size a
  inb_S28x128x256_S1x128x256_23_0_0 : ∀ a, (![23, 0, 0] : Fin 3 → Nat) a + S1x128x256.size a ≤ S28x128x256.size a
  inb_S1x28x128x256_S1x1x128x256_0_23_0_0 : ∀ a, (![0, 23, 0, 0] : Fin 4 → Nat) a + S1x1x128x256.size a ≤ S1x28x128x256.size a
  inb_S28x128x256_S1x128x256_24_0_0 : ∀ a, (![24, 0, 0] : Fin 3 → Nat) a + S1x128x256.size a ≤ S28x128x256.size a
  inb_S1x28x128x256_S1x1x128x256_0_24_0_0 : ∀ a, (![0, 24, 0, 0] : Fin 4 → Nat) a + S1x1x128x256.size a ≤ S1x28x128x256.size a
  inb_S28x128x256_S1x128x256_25_0_0 : ∀ a, (![25, 0, 0] : Fin 3 → Nat) a + S1x128x256.size a ≤ S28x128x256.size a
  inb_S1x28x128x256_S1x1x128x256_0_25_0_0 : ∀ a, (![0, 25, 0, 0] : Fin 4 → Nat) a + S1x1x128x256.size a ≤ S1x28x128x256.size a
  inb_S28x128x256_S1x128x256_26_0_0 : ∀ a, (![26, 0, 0] : Fin 3 → Nat) a + S1x128x256.size a ≤ S28x128x256.size a
  inb_S1x28x128x256_S1x1x128x256_0_26_0_0 : ∀ a, (![0, 26, 0, 0] : Fin 4 → Nat) a + S1x1x128x256.size a ≤ S1x28x128x256.size a
  inb_S28x128x256_S1x128x256_27_0_0 : ∀ a, (![27, 0, 0] : Fin 3 → Nat) a + S1x128x256.size a ≤ S28x128x256.size a
  inb_S1x28x128x256_S1x1x128x256_0_27_0_0 : ∀ a, (![0, 27, 0, 0] : Fin 4 → Nat) a + S1x1x128x256.size a ≤ S1x28x128x256.size a
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x28x128x256.size a ≤ S32x28x256x256.size a
  hwx0_0 : ∀ i : grid0.Coords, EltTy.bits .f32 = 32 ∨ (Rect.block (s := S32x28x256x256) S1x28x128x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S28x128x256.size a ≤ S28x256x256.size a
  hwx0_1 : ∀ i : grid0.Coords, EltTy.bits .f32 = 32 ∨ (Rect.block (s := S28x256x256) S28x128x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x28x128x256.size a ≤ S32x28x256x256.size a
  hwx0_2 : ∀ i : grid0.Coords, EltTy.bits .f32 = 32 ∨ (Rect.block (s := S32x28x256x256) S1x28x128x256.size (cc0_transform_2 i) (hinb0_2 i)).WholeWords (EltTy.packing .f32)

variable [Facts₀]

abbrev win0_0 : Pipeline.Window sig grid0 :=
  Pipeline.Window.ofSpec (Memref.whole main_arg0) S1x28x128x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S28x128x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x28x128x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S32x28x256x256 : Shape := ⟨4, ![32, 28, 256, 256]⟩
abbrev S28x256x256 : Shape := ⟨3, ![28, 256, 256]⟩
abbrev S1x28x256x256 : Shape := ⟨4, ![1, 28, 256, 256]⟩
abbrev S256 : Shape := ⟨1, ![256]⟩
abbrev S1x256 : Shape := ⟨2, ![1, 256]⟩
abbrev S28 : Shape := ⟨1, ![28]⟩
abbrev S28x1 : Shape := ⟨2, ![28, 1]⟩
abbrev S_ : Shape := ⟨0, ![]⟩
abbrev S28x256 : Shape := ⟨2, ![28, 256]⟩
abbrev S7168 : Shape := ⟨1, ![7168]⟩
abbrev S32x256x28x256 : Shape := ⟨4, ![32, 256, 28, 256]⟩
abbrev S32x256x7168 : Shape := ⟨3, ![32, 256, 7168]⟩
abbrev S32x256x310 : Shape := ⟨3, ![32, 256, 310]⟩
abbrev S7168x1 : Shape := ⟨2, ![7168, 1]⟩

abbrev nBuf : Space → Nat
  | .hbm => 43
  | .vmem => 0
  | .smem => 0
  | _ => 0

abbrev bufTy : (tb : Table) → Fin (tcTables nBuf tb) → BufTy
  | .hbm, ⟨0, _⟩ => ⟨S32x28x256x256, .f32⟩
  | .hbm, ⟨1, _⟩ => ⟨S28x256x256, .f32⟩
  | .hbm, ⟨2, _⟩ => ⟨S1x28x256x256, .f32⟩
  | .hbm, ⟨3, _⟩ => ⟨S32x28x256x256, .f32⟩
  | .hbm, ⟨4, _⟩ => ⟨S32x28x256x256, .f32⟩
  | .hbm, ⟨5, _⟩ => ⟨S256, .i32⟩
  | .hbm, ⟨6, _⟩ => ⟨S1x256, .i32⟩
  | .hbm, ⟨7, _⟩ => ⟨S28, .i32⟩
  | .hbm, ⟨8, _⟩ => ⟨S28x1, .i32⟩
  | .hbm, ⟨9, _⟩ => ⟨S_, .i32⟩
  | .hbm, ⟨10, _⟩ => ⟨S28x1, .i32⟩
  | .hbm, ⟨11, _⟩ => ⟨S28x1, .i32⟩
  | .hbm, ⟨12, _⟩ => ⟨S28x256, .i32⟩
  | .hbm, ⟨13, _⟩ => ⟨S28x256, .i32⟩
  | .hbm, ⟨14, _⟩ => ⟨S28x256, .i32⟩
  | .hbm, ⟨15, _⟩ => ⟨S7168, .i32⟩
  | .hbm, ⟨16, _⟩ => ⟨S32x256x28x256, .f32⟩
  | .hbm, ⟨17, _⟩ => ⟨S32x256x7168, .f32⟩
  | .hbm, ⟨18, _⟩ => ⟨S_, .f32⟩
  | .hbm, ⟨19, _⟩ => ⟨S32x256x310, .f32⟩
  | .hbm, ⟨20, _⟩ => ⟨S_, .i32⟩
  | .hbm, ⟨21, _⟩ => ⟨S7168, .i32⟩
  | .hbm, ⟨22, _⟩ => ⟨S7168, .i1⟩
  | .hbm, ⟨23, _⟩ => ⟨S_, .i32⟩
  | .hbm, ⟨24, _⟩ => ⟨S7168, .i32⟩
  | .hbm, ⟨25, _⟩ => ⟨S7168, .i32⟩
  | .hbm, ⟨26, _⟩ => ⟨S7168, .i32⟩
  | .hbm, ⟨27, _⟩ => ⟨S7168x1, .i32⟩
  | .hbm, ⟨28, _⟩ => ⟨S32x256x310, .f32⟩
  | .hbm, ⟨29, _⟩ => ⟨S_, .i32⟩
  | .hbm, ⟨30, _⟩ => ⟨S7168, .i32⟩
  | .hbm, ⟨31, _⟩ => ⟨S7168, .i1⟩
  | .hbm, ⟨32, _⟩ => ⟨S_, .i32⟩
  | .hbm, ⟨33, _⟩ => ⟨S7168, .i32⟩
  | .hbm, ⟨34, _⟩ => ⟨S7168, .i32⟩
  | .hbm, ⟨35, _⟩ => ⟨S7168, .i32⟩
  | .hbm, ⟨36, _⟩ => ⟨S7168x1, .i32⟩
  | .hbm, ⟨37, _⟩ => ⟨S32x256x7168, .f32⟩
  | .hbm, ⟨38, _⟩ => ⟨S32x256x28x256, .f32⟩
  | .hbm, ⟨39, _⟩ => ⟨S32x28x256x256, .f32⟩
  | .hbm, ⟨40, _⟩ => ⟨S1x28x256x256, .f32⟩
  | .hbm, ⟨41, _⟩ => ⟨S32x28x256x256, .f32⟩
  | .hbm, ⟨42, _⟩ => ⟨S32x28x256x256, .f32⟩
  | _, _ => ⟨S32x28x256x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_c : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_cst : Ref sig .tc := ⟨.hbm, 18, rfl⟩
abbrev main_v15 : Ref sig .tc := ⟨.hbm, 19, rfl⟩
abbrev main_c_0 : Ref sig .tc := ⟨.hbm, 20, rfl⟩
abbrev main_v16 : Ref sig .tc := ⟨.hbm, 21, rfl⟩
abbrev main_v17 : Ref sig .tc := ⟨.hbm, 22, rfl⟩
abbrev main_c_1 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_c_2 : Ref sig .tc := ⟨.hbm, 29, rfl⟩
abbrev main_v23 : Ref sig .tc := ⟨.hbm, 30, rfl⟩
abbrev main_v24 : Ref sig .tc := ⟨.hbm, 31, rfl⟩
abbrev main_c_3 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩

abbrev nD : Nat := 1
abbrev τ : Topo := Topo.v7x

variable {F : FTy → Type} [FloatOps F]

class Facts₀ : Prop where
  bcast_S28x256x256_S1x28x256x256_1_2_3 : S28x256x256.BroadcastsInDim S1x28x256x256 (![1, 2, 3] : Fin 3 → Fin S1x28x256x256.rank)
  bcast_S1x28x256x256_S32x28x256x256_0_1_2_3 : S1x28x256x256.BroadcastsInDim S32x28x256x256 (![0, 1, 2, 3] : Fin 4 → Fin S32x28x256x256.rank)
  bcast_S256_S1x256_1 : S256.BroadcastsInDim S1x256 (![1] : Fin 1 → Fin S1x256.rank)
  bcast_S28_S28x1_0 : S28.BroadcastsInDim S28x1 (![0] : Fin 1 → Fin S28x1.rank)
  bcast_S_S28x1 : S_.BroadcastsInDim S28x1 (![] : Fin 0 → Fin S28x1.rank)
  bcast_S1x256_S28x256_0_1 : S1x256.BroadcastsInDim S28x256 (![0, 1] : Fin 2 → Fin S28x256.rank)
  bcast_S28x1_S28x256_0_1 : S28x1.BroadcastsInDim S28x256 (![0, 1] : Fin 2 → Fin S28x256.rank)
  shapeCasts_S28x256_S7168 : S28x256.ShapeCasts S7168
  transposes_S32x28x256x256_S32x256x28x256_0_2_1_3 : S32x28x256x256.Transposes [0, 2, 1, 3] S32x256x28x256
  shapeCasts_S32x256x28x256_S32x256x7168 : S32x256x28x256.ShapeCasts S32x256x7168
  bcast_S_S32x256x310 : S_.BroadcastsInDim S32x256x310 (![] : Fin 0 → Fin S32x256x310.rank)
  bcast_S_S7168 : S_.BroadcastsInDim S7168 (![] : Fin 0 → Fin S7168.rank)
  bcast_S7168_S7168x1_0 : S7168.BroadcastsInDim S7168x1 (![0] : Fin 1 → Fin S7168x1.rank)
  shapeCasts_S32x256x7168_S32x256x28x256 : S32x256x7168.ShapeCasts S32x256x28x256
  transposes_S32x256x28x256_S32x28x256x256_0_2_1_3 : S32x256x28x256.Transposes [0, 2, 1, 3] S32x28x256x256
  scatter_S32x256x310_S7168x1_S32x256x7168_01_2_2_1_wf : ScatterDims.WF S32x256x310 S7168x1 S32x256x7168 [0, 1] [2] [2] 1
  gather_S32x256x310_S7168x1_S32x256x7168_01_2_n_n_2_1_322561_wf : GatherDims.WF S32x256x310 S7168x1 S32x256x7168 [0, 1] [2] [] [2] [] 1 ![32, 256, 1]

variable [Facts₀]

def scatter_S32x256x310_S7168x1_S32x256x7168_01_2_2_1 : ScatterDims S32x256x310 S7168x1 S32x256x7168 where
  updateWindowDims := [0, 1]
  insertedWindowDims := [2]
  scatterDimsToOperandDims := [2]
  indexVectorDim := 1
  wf := scatter_S32x256x310_S7168x1_S32x256x7168_01_2_2_1_wf
def gather_S32x256x310_S7168x1_S32x256x7168_01_2_n_n_2_1_322561 : GatherDims S32x256x310 S7168x1 S32x256x7168 where
  offsetDims := [0, 1]
  collapsedSliceDims := [2]
  operandBatchingDims := []
  startIndicesBatchingDims := []
  startIndexMap := [2]
  indexVectorDim := 1
  sliceSizes := ![32, 256, 1]
  wf := gather_S32x256x310_S7168x1_S32x256x7168_01_2_n_n_2_1_322561_wf

class Facts : Prop extends Facts₀ where

variable [Facts]
-- ==== Proof.Spec.lean ====
/-
  The common specification of the coded-aperture encode/decode.

  For one batch element and one image row, band `l` contributes its masked pixel `x l n * phi l n` to
  measurement column `n + 2 l` (the dispersion shifts band `l` by `2 l` columns), and the decoded value
  at band `l`, column `n` is the measurement at column `n + 2 l` masked again by `phi l n`:

      meas c       = sum over the bands l with 2 l <= c and c - 2 l < 256 of  x l (c - 2 l) * phi l (c - 2 l)
      G (b,l,m,n)  = meas (n + 2 l) * phi (l,m,n)

  The measurement is built one band at a time (`measUpTo k`: the bands below `k`); `measUpTo_succ` is the
  one-band step. Only the commutative-monoid laws of the sum are used: no finiteness.
-/
import Idealize.ShloMosaic.PureOps.Ideal
import Idealize.ShloMosaic.Lib.ValueIdx

noncomputable section

open scoped BigOperators

namespace Cert.Spec

open Idealize.ShloMosaic Idealize.ShloMosaic.ValueIdx

abbrev SX : Shape := ⟨4, ![32, 28, 256, 256]⟩
abbrev SP : Shape := ⟨3, ![28, 256, 256]⟩

/-- One row's masked pixel of band `l` at column `n`, zero outside the 256 columns. -/
def masked (xr pr : Fin 28 → Fin 256 → EReal) (l : Fin 28) (n : ℕ) : EReal :=
  if h : n < 256 then xr l ⟨n, h⟩ * pr l ⟨n, h⟩ else 0

theorem masked_of_lt (xr pr : Fin 28 → Fin 256 → EReal) (l : Fin 28) (n : ℕ) (h : n < 256) :
    masked xr pr l n = xr l ⟨n, h⟩ * pr l ⟨n, h⟩ := by
  unfold masked; rw [dif_pos h]

theorem masked_of_ge (xr pr : Fin 28 → Fin 256 → EReal) (l : Fin 28) (n : ℕ) (h : 256 ≤ n) :
    masked xr pr l n = 0 := by
  unfold masked; rw [dif_neg (by omega)]

/-- What the bands below `k` have contributed to measurement column `c` of one row. -/
def measUpTo (k : ℕ) (xr pr : Fin 28 → Fin 256 → EReal) (c : ℕ) : EReal :=
  ∑ l : Fin 28, if l.val < k ∧ 2 * l.val ≤ c then masked xr pr l (c - 2 * l.val) else 0

/-- One row's measurement: all 28 bands. -/
def meas (xr pr : Fin 28 → Fin 256 → EReal) (c : ℕ) : EReal := measUpTo 28 xr pr c

theorem measUpTo_zero (xr pr : Fin 28 → Fin 256 → EReal) (c : ℕ) : measUpTo 0 xr pr c = 0 := by
  unfold measUpTo
  exact Finset.sum_eq_zero fun l _ => if_neg (fun h => Nat.not_lt_zero _ h.1)

/-- Adding band `k`: column `c` gains band `k`'s masked pixel at column `c - 2 k` (nothing when `c < 2 k`,
    and `masked` is zero past the last column). -/
theorem measUpTo_succ (xr pr : Fin 28 → Fin 256 → EReal) (k : Fin 28) (c : ℕ) :
    measUpTo (k.val + 1) xr pr c
      = measUpTo k.val xr pr c + (if 2 * k.val ≤ c then masked xr pr k (c - 2 * k.val) else 0) := by
  unfold measUpTo
  have hsplit : ∀ l : Fin 28,
      (if l.val < k.val + 1 ∧ 2 * l.val ≤ c then masked xr pr l (c - 2 * l.val) else 0)
        = (if l.val < k.val ∧ 2 * l.val ≤ c then masked xr pr l (c - 2 * l.val) else 0)
          + (if l = k then (if 2 * k.val ≤ c then masked xr pr k (c - 2 * k.val) else 0) else 0) := by
    intro l
    by_cases hlk : l = k
    · subst hlk
      have hlt : ¬ (l.val < l.val ∧ 2 * l.val ≤ c) := fun h => Nat.lt_irrefl _ h.1
      rw [if_neg hlt, if_pos rfl, zero_add]
      by_cases hc : 2 * l.val ≤ c
      · rw [if_pos ⟨Nat.lt_succ_self _, hc⟩, if_pos hc]
      · rw [if_neg (fun h => hc h.2), if_neg hc]
    · rw [if_neg hlk, add_zero]
      have hne : l.val ≠ k.val := fun h => hlk (Fin.ext h)
      by_cases h1 : l.val < k.val ∧ 2 * l.val ≤ c
      · rw [if_pos h1, if_pos ⟨by omega, h1.2⟩]
      · rw [if_neg h1, if_neg (fun h => h1 ⟨by omega, h.2⟩)]
  rw [Finset.sum_congr rfl (fun l _ => hsplit l), Finset.sum_add_distrib, Finset.sum_ite_eq' Finset.univ k,
    if_pos (Finset.mem_univ k)]

/-- The decoded cube at batch `b`, band `l`, row `m`, column `n`. -/
def Gat (x : SX.Idx → EReal) (phi : SP.Idx → EReal) (b : Fin 32) (l : Fin 28) (m : Fin 256) (n : Fin 256) : EReal :=
  meas (fun l' n' => x (ix4 b l' m n')) (fun l' n' => phi (ix3 l' m n')) (n.val + 2 * l.val) * phi (ix3 l m n)

/-- The decoded cube as one function of the two argument arrays. -/
def G (x : SX.Idx → EReal) (phi : SP.Idx → EReal) : SX.Idx → EReal :=
  fun i => Gat x phi (i 0) (i 1) (i 2) (i 3)

theorem G_ix4 (x : SX.Idx → EReal) (phi : SP.Idx → EReal) (b : Fin 32) (l : Fin 28) (m : Fin 256) (n : Fin 256) :
    G x phi (ix4 b l m n) = Gat x phi b l m n := rfl

end Cert.Spec

end
-- ==== Proof.ScratchLaws.lean ====
/-
  The scratch canvas of one grid point, read as a function.

  The body keeps a 128 x 384 canvas: it is zeroed, then band `k` (k = 0 … 27) adds its 128 x 256 masked strip
  into the canvas columns `[2 k, 2 k + 256)`. A list of stores (newest first) reads back, at row `r` and column
  `c`, as the newest store's payload where its window holds `c` and as the earlier stores elsewhere
  (`canon_cons_window`). So if the canvas before band `k` is `canvas k` — for each row the measurement built from
  the bands below `k` (`Cert.Spec.measUpTo`) — and the stored strip is "what was there plus band `k`'s masked
  pixels", the canvas after it is `canvas (k + 1)` (`canvas_step`): the one-band law `measUpTo_succ`.
-/
import proofs.«174060_j27281632264566_1_alg».proof.KernelIdeal
import proofs.«174060_j27281632264566_1_alg».proof.Proof.Spec
import Idealize.ShloMosaic.Lib.Pipeline.Value
import Idealize.ShloMosaic.Lib.ValueIdx

noncomputable section

namespace Cert.KernelBridge

open Cert.KernelIdeal Cert.Spec Idealize.ShloMosaic Idealize.ShloMosaic.ValueIdx

/-- Row `r` of a point's block of `x`: band `l`, column `n`. -/
def rowX (x0 : S1x28x128x256.Idx → EReal) (r : Fin 128) : Fin 28 → Fin 256 → EReal :=
  fun l n => x0 (ix4 (0 : Fin 1) l r n)

/-- Row `r` of a point's block of `phi`. -/
def rowP (x1 : S28x128x256.Idx → EReal) (r : Fin 128) : Fin 28 → Fin 256 → EReal :=
  fun l n => x1 (ix3 l r n)

/-- The canvas once the bands below `k` are in: row `r`, column `c`. -/
def canvas (k : ℕ) (x0 : S1x28x128x256.Idx → EReal) (x1 : S28x128x256.Idx → EReal) (r : Fin 128) (c : ℕ) : EReal :=
  measUpTo k (rowX x0 r) (rowP x1 r) c

/-- A list of canvas stores whose newest store is a 128 x 256 window at column offset `o`: inside the window the
    newest payload, outside it the earlier stores. -/
theorem canon_cons_window (o : ℕ) (inb : ∀ a, (![0, o] : Fin 2 → ℕ) a + S128x256.size a ≤ S128x384.size a)
    (w : (Rect.unit (s := S128x384) ![0, o] S128x256.size inb).shape.Idx → EReal)
    (L : List (View.Piece (Elt Ideal) S128x384 .f32)) (r : Fin 128) (c : Fin 384) :
    View.canon ((⟨Rect.unit (s := S128x384) ![0, o] S128x256.size inb, w⟩ : View.Piece (Elt Ideal) S128x384 .f32) :: L) (ix2 r c)
      = if h : o ≤ c.val ∧ c.val < o + 256 then w (ix2 r ⟨c.val - o, by omega⟩) else View.canon L (ix2 r c) := by
  by_cases h : o ≤ c.val ∧ c.val < o + 256
  · rw [dif_pos h]
    have e : (ix2 r c : S128x384.Idx)
        = (Rect.unit (s := S128x384) ![0, o] S128x256.size inb).emb (ix2 r ⟨c.val - o, by omega⟩) := by
      funext a; refine Fin.ext ?_
      match a with
      | ⟨0, _⟩ => show r.val = 0 + 1 * r.val; omega
      | ⟨1, _⟩ => show c.val = o + 1 * (c.val - o); omega
    rw [e]
    exact View.canon_cons_emb _ w L _
  · rw [dif_neg h]
    refine View.canon_cons_of_not_mem _ L ?_
    rw [Rect.mem_set_unit]
    intro hm
    have h1 := hm 1
    exact h ⟨h1.1, h1.2⟩

/-- Band `k`'s store: if the strip stored at column offset `2 k` is what the canvas held there plus band `k`'s
    masked pixels, the canvas moves from `canvas k` to `canvas (k + 1)`. -/
theorem canvas_step (kn : ℕ) (hkn : kn < 28) (o : ℕ) (ho : o = 2 * kn)
    (inb : ∀ a, (![0, o] : Fin 2 → ℕ) a + S128x256.size a ≤ S128x384.size a)
    (w : (Rect.unit (s := S128x384) ![0, o] S128x256.size inb).shape.Idx → EReal)
    (L : List (View.Piece (Elt Ideal) S128x384 .f32))
    (x0 : S1x28x128x256.Idx → EReal) (x1 : S28x128x256.Idx → EReal)
    (hL : ∀ (r : Fin 128) (c : Fin 384), View.canon L (ix2 r c) = canvas kn x0 x1 r c.val)
    (hw : ∀ (r : Fin 128) (n : Fin 256) (hc : o + n.val < 384),
      w (ix2 r n) = View.canon L (ix2 r ⟨o + n.val, hc⟩) + x0 (ix4 (0 : Fin 1) ⟨kn, hkn⟩ r n) * x1 (ix3 ⟨kn, hkn⟩ r n))
    (r : Fin 128) (c : Fin 384) :
    View.canon ((⟨Rect.unit (s := S128x384) ![0, o] S128x256.size inb, w⟩ : View.Piece (Elt Ideal) S128x384 .f32) :: L) (ix2 r c)
      = canvas (kn + 1) x0 x1 r c.val := by
  subst ho
  rw [canon_cons_window]
  unfold canvas
  have hs := measUpTo_succ (rowX x0 r) (rowP x1 r) ⟨kn, hkn⟩ c.val
  rw [show (⟨kn, hkn⟩ : Fin 28).val = kn from rfl] at hs
  rw [hs]
  by_cases h : 2 * kn ≤ c.val ∧ c.val < 2 * kn + 256
  · rw [dif_pos h, hw r ⟨c.val - 2 * kn, by omega⟩ (by show 2 * kn + (c.val - 2 * kn) < 384; omega)]
    have e : (⟨2 * kn + (c.val - 2 * kn), by omega⟩ : Fin 384) = c := Fin.ext (by show 2 * kn + (c.val - 2 * kn) = c.val; omega)
    rw [e, hL, if_pos h.1, masked_of_lt _ _ _ _ (by omega)]
    rfl
  · rw [dif_neg h, hL]
    by_cases h1 : 2 * kn ≤ c.val
    · rw [if_pos h1, masked_of_ge _ _ _ _ (by omega), add_zero]; rfl
    · rw [if_neg h1, add_zero]; rfl

/-- The zeroed canvas is `canvas 0`. -/
theorem canvas_zero (x0 : S1x28x128x256.Idx → EReal) (x1 : S28x128x256.Idx → EReal) (r : Fin 128) (c : ℕ) :
    canvas 0 x0 x1 r c = 0 := measUpTo_zero _ _ _

end Cert.KernelBridge

end
-- ==== Proof.PayloadLaws.lean ====
/-
  The body's values read at an index.

  Every store of the body is a short pure term of loads. Read at a row `r` and a column `n`:
  the masked cube `y1 = x * phi` at band `l` is `x (0,l,r,n) * phi (l,r,n)`; band `k`'s encode strip is what the
  canvas window held plus `y1 (k,r,n)`; band `l`'s decoded strip is the canvas window's value times `phi (l,r,n)`.
  A load of a whole staging buffer reads the block; a 128 x 256 window load of the canvas at column offset `o`
  reads the canvas at column `o + n`; the load of band `l`'s slab of `phi` reads `phi (l, r, n)`.
-/
import proofs.«174060_j27281632264566_1_alg».proof.KernelIdeal
import Idealize.ShloMosaic.Lib.Pipeline.Value
import Idealize.ShloMosaic.Lib.Pipeline.Frame
import Idealize.ShloMosaic.Lib.ValueIdx

noncomputable section

namespace Cert.KernelBridge

open Cert.KernelIdeal Idealize.ShloMosaic Idealize.ShloMosaic.ValueIdx

/-- A load of a whole staging buffer through the whole-shape rectangle reads the buffer's block. -/
theorem readAt_whole {S : Shape} {e : EltTy} (M : Memref sig .tc .vmem S e) (hM : M.IsWhole)
    {off : Fin S.rank → Nat} (hz : off = fun _ => 0) (inb : ∀ a, off a + S.size a ≤ S.size a)
    (X : S.Idx → Elt Ideal e) :
    View.readAt (Elt Ideal) M.view (Rect.unit (s := S) off S.size inb).toLoadRect (hM.unread X) = X := by
  rw [View.readAt_eq_ld, hM.read_unread]
  exact View.ld_unit_zero hz inb X

/-- The masked cube at band `l`, row `r`, column `n`: the block of `x` has a leading unit axis. -/
theorem masked_cube_apply (h : S1x28x128x256.ShapeCasts S28x128x256)
    (v4 : S1x28x128x256.Idx → EReal) (v6 : S28x128x256.Idx → EReal) (l : Fin 28) (r : Fin 128) (n : Fin 256) :
    mulf (F := Ideal) (φ := .f32) (shapeCast S28x128x256 v4 h) v6 (ix3 l r n)
      = v4 (ix4 (0 : Fin 1) l r n) * v6 (ix3 l r n) := by
  show shapeCast S28x128x256 v4 h (ix3 l r n) * v6 (ix3 l r n) = _
  congr 1
  refine (shapeCast_dropUnit_apply ![28, 128, 256] v4 h (ix3 l r n)).trans (congrArg v4 ?_)
  funext a
  match a with
  | ⟨0, _⟩ => rfl
  | ⟨1, _⟩ => rfl
  | ⟨2, _⟩ => rfl
  | ⟨3, _⟩ => rfl

/-- Band `k`'s encode strip at row `r`, column `n`: the window's old value plus the masked cube at `(k, r, n)`. -/
theorem encode_strip_apply (kn : ℕ) (hkn : kn < 28)
    (hs : S28x128x256.Slices ![kn, 0, 0] S1x128x256) (h1 : S1x128x256.ShapeCasts S128x256)
    (h2 : S128x256.ShapeCasts S128x256)
    (y : S28x128x256.Idx → EReal) (v : S128x256.Idx → EReal) (r : Fin 128) (n : Fin 256) :
    shapeCast S128x256 (addf (F := Ideal) (φ := .f32) v
        (shapeCast S128x256 (extractStridedSlice S1x128x256 ![kn, 0, 0] y hs) h1)) h2 (ix2 r n)
      = v (ix2 r n) + y (ix3 ⟨kn, hkn⟩ r n) := by
  rw [shapeCast_self]
  show v (ix2 r n) + shapeCast S128x256 (extractStridedSlice S1x128x256 ![kn, 0, 0] y hs) h1 (ix2 r n) = _
  congr 1
  refine (shapeCast_dropUnit_apply ![128, 256] _ h1 (ix2 r n)).trans ?_
  refine extractStridedSlice_apply _ y hs _ (ix3 ⟨kn, hkn⟩ r n) (fun a => ?_)
  match a with
  | ⟨0, _⟩ => show kn = kn + 0; omega
  | ⟨1, _⟩ => show r.val = 0 + r.val; omega
  | ⟨2, _⟩ => show n.val = 0 + n.val; omega

/-- Band `l`'s decoded strip at `(0, 0, r, n)`: the canvas window's value times the slab of `phi`. -/
theorem decode_strip_apply (h1 : S1x128x256.ShapeCasts S128x256) (h2 : S128x256.ShapeCasts S1x1x128x256)
    (v : S128x256.Idx → EReal) (p : S1x128x256.Idx → EReal) (r : Fin 128) (n : Fin 256) :
    shapeCast S1x1x128x256 (mulf (F := Ideal) (φ := .f32) v (shapeCast S128x256 p h1)) h2
        (ix4 (0 : Fin 1) (0 : Fin 1) r n)
      = v (ix2 r n) * p (ix3 (0 : Fin 1) r n) := by
  refine (shapeCast_apply _ h2 (ix4 (0 : Fin 1) (0 : Fin 1) r n) (ix2 r n) ?_).trans ?_
  · rw [Shape.rowMajor_val_two, Shape.rowMajor_val_four]
    show r.val * 256 + n.val = ((0 * 1 + 0) * 128 + r.val) * 256 + n.val
    omega
  · show v (ix2 r n) * shapeCast S128x256 p h1 (ix2 r n) = _
    congr 1
    refine (shapeCast_dropUnit_apply ![128, 256] p h1 (ix2 r n)).trans (congrArg p ?_)
    funext a
    match a with
    | ⟨0, _⟩ => rfl
    | ⟨1, _⟩ => rfl
    | ⟨2, _⟩ => rfl

/-- The same strip when it was computed before the cast to the store's shape. -/
theorem decode_cast_apply (h2 : S128x256.ShapeCasts S1x1x128x256) (v : S128x256.Idx → EReal) (r : Fin 128) (n : Fin 256) :
    shapeCast S1x1x128x256 v h2 (ix4 (0 : Fin 1) (0 : Fin 1) r n) = v (ix2 r n) := by
  refine shapeCast_apply _ h2 (ix4 (0 : Fin 1) (0 : Fin 1) r n) (ix2 r n) ?_
  rw [Shape.rowMajor_val_two, Shape.rowMajor_val_four]
  show r.val * 256 + n.val = ((0 * 1 + 0) * 128 + r.val) * 256 + n.val
  omega

/-- The product of a window value and a slab of `phi`, before any cast. -/
theorem decode_prod_apply (h1 : S1x128x256.ShapeCasts S128x256)
    (v : S128x256.Idx → EReal) (p : S1x128x256.Idx → EReal) (r : Fin 128) (n : Fin 256) :
    mulf (F := Ideal) (φ := .f32) v (shapeCast S128x256 p h1) (ix2 r n) = v (ix2 r n) * p (ix3 (0 : Fin 1) r n) := by
  show v (ix2 r n) * shapeCast S128x256 p h1 (ix2 r n) = _
  congr 1
  refine (shapeCast_dropUnit_apply ![128, 256] p h1 (ix2 r n)).trans (congrArg p ?_)
  funext a
  match a with
  | ⟨0, _⟩ => rfl
  | ⟨1, _⟩ => rfl
  | ⟨2, _⟩ => rfl

/-- A 128 x 256 window of the canvas at column offset `o` holds, at `(r, n)`, canvas element `(r, o + n)`. -/
theorem window_idx (o : ℕ) (inb : ∀ a, (![0, o] : Fin 2 → ℕ) a + S128x256.size a ≤ S128x384.size a)
    (r : Fin 128) (n : Fin 256) (hc : o + n.val < 384) :
    (Rect.unit (s := S128x384) ![0, o] S128x256.size inb).toLoadRect.idx (ix2 r n) = ix2 r ⟨o + n.val, hc⟩ := by
  funext a; refine Fin.ext ?_
  match a with
  | ⟨0, _⟩ => show 0 + 1 * r.val = r.val; omega
  | ⟨1, _⟩ => show o + 1 * n.val = o + n.val; omega

/-- The load of band `l`'s slab of the block of `phi` reads `phi (l, r, n)`. -/
theorem slab_apply (M : Memref sig .tc .vmem S28x128x256 .f32) (hM : M.IsWhole) (ln : ℕ) (hln : ln < 28)
    (inb : ∀ a, (![ln, 0, 0] : Fin 3 → ℕ) a + S1x128x256.size a ≤ S28x128x256.size a)
    (x1 : S28x128x256.Idx → EReal) (r : Fin 128) (n : Fin 256) :
    View.readAt (Elt Ideal) M.view (Rect.unit (s := S28x128x256) ![ln, 0, 0] S1x128x256.size inb).toLoadRect (hM.unread x1)
        (ix3 (0 : Fin 1) r n)
      = x1 (ix3 ⟨ln, hln⟩ r n) := by
  rw [View.readAt_eq_ld, hM.read_unread]
  show x1 ((Rect.unit (s := S28x128x256) ![ln, 0, 0] S1x128x256.size inb).idx (ix3 (0 : Fin 1) r n)) = _
  refine congrArg x1 ?_
  funext a; refine Fin.ext ?_
  match a with
  | ⟨0, _⟩ => show ln + 1 * 0 = ln; omega
  | ⟨1, _⟩ => show 0 + 1 * r.val = r.val; omega
  | ⟨2, _⟩ => show 0 + 1 * n.val = n.val; omega

end Cert.KernelBridge

end
-- ==== Proof.Encode.lean ====
/-
  The encode half of one grid point: the canvas after each band.

  The body's run names the canvas's list of stores after each band. The newest store of band `k` is the
  128 x 256 window at column offset `2 k`, holding what a load of the same window read plus band `k` of the masked cube
  `x * phi`. `canvas_case` is the one-band argument stated over an arbitrary such list; `canvas_0` is the zeroed canvas.
  The 28 bands are instances of `canvas_case`, one per band, in the module of cases.
-/
import proofs.«174060_j27281632264566_1_alg».proof.Proof.Gen.KernelIdeal.Frame.RunA
import proofs.«174060_j27281632264566_1_alg».proof.Proof.ScratchLaws
import proofs.«174060_j27281632264566_1_alg».proof.Proof.PayloadLaws
import Idealize.ShloMosaic.PureOps.Ideal.Laws

set_option maxRecDepth 16384

noncomputable section

namespace Cert.KernelBridge

open Cert.KernelIdeal Cert.KernelIdeal.Gen Cert.Spec Idealize.ShloMosaic Idealize.ShloMosaic.ValueIdx

section
variable (c : Dev nD) (arg2 : Memref sig .tc .vmem S1x28x128x256 .f32) (harg2 : arg2.IsWhole)
  (arg3 : Memref sig .tc .vmem S28x128x256 .f32) (harg3 : arg3.IsWhole)
  (arg5 : Memref sig .tc .vmem S128x384 .f32)
  (x0 : Vec Ideal S1x28x128x256 .f32) (x1 : Vec Ideal S28x128x256 .f32)

/-- The masked cube the body computes once, at band `l`, row `r`, column `n`. -/
theorem cube_apply (l : Fin 28) (r : Fin 128) (n : Fin 256) :
    kernelRun0_A.sl.r (F := Ideal) c arg2 harg2 arg3 harg3 x0 x1 (ix3 l r n)
      = x0 (ix4 (0 : Fin 1) l r n) * x1 (ix3 l r n) := by
  unfold kernelRun0_A.sl.r k0_pay3
  rw [readAt_whole arg2 harg2 (by funext a; match a with | ⟨0, _⟩ => rfl | ⟨1, _⟩ => rfl | ⟨2, _⟩ => rfl | ⟨3, _⟩ => rfl),
    readAt_whole arg3 harg3 (by funext a; match a with | ⟨0, _⟩ => rfl | ⟨1, _⟩ => rfl | ⟨2, _⟩ => rfl)]
  exact masked_cube_apply _ x0 x1 l r n

end

/-- ONE BAND. A list of canvas stores `Lnew` whose newest store is the window at column offset `o = 2 k`, with payload
    "the load of that window from the earlier stores `L`, plus band `k` of a cube `y` that is the masked cube":
    if `L` reads as `canvas k`, then `Lnew` reads as `canvas (k + 1)`. -/
theorem canvas_case (kn : ℕ) (hkn : kn < 28) (o : ℕ) (ho : o = 2 * kn)
    (inb : ∀ a, (![0, o] : Fin 2 → ℕ) a + S128x256.size a ≤ S128x384.size a)
    (hs : S28x128x256.Slices ![kn, 0, 0] S1x128x256) (h1 : S1x128x256.ShapeCasts S128x256)
    (h2 : S128x256.ShapeCasts S128x256)
    (M : Memref sig .tc .vmem S128x384 .f32)
    (L Lnew : List (View.Piece (Elt Ideal) S128x384 .f32))
    (w : (Rect.unit (s := S128x384) ![0, o] S128x256.size inb).shape.Idx → EReal)
    (v : S128x256.Idx → EReal) (y : S28x128x256.Idx → EReal)
    (x0 : S1x28x128x256.Idx → EReal) (x1 : S28x128x256.Idx → EReal)
    (hLnew : Lnew = (⟨Rect.unit (s := S128x384) ![0, o] S128x256.size inb, w⟩ : View.Piece (Elt Ideal) S128x384 .f32) :: L)
    (hwdef : w = shapeCast S128x256 (addf (F := Ideal) (φ := .f32) v
        (shapeCast S128x256 (extractStridedSlice S1x128x256 ![kn, 0, 0] y hs) h1)) h2)
    (hv : v = M.view.readCov L (Rect.unit (s := S128x384) ![0, o] S128x256.size inb).toLoadRect)
    (hy : ∀ (l : Fin 28) (r : Fin 128) (n : Fin 256), y (ix3 l r n) = x0 (ix4 (0 : Fin 1) l r n) * x1 (ix3 l r n))
    (hL : ∀ (r : Fin 128) (cc : Fin 384), View.canon L (ix2 r cc) = canvas kn x0 x1 r cc.val) :
    ∀ (r : Fin 128) (cc : Fin 384), View.canon Lnew (ix2 r cc) = canvas (kn + 1) x0 x1 r cc.val := by
  subst hLnew hwdef hv
  intro r cc
  refine canvas_step kn hkn o ho inb _ L x0 x1 hL (fun r n hc => ?_) r cc
  refine (encode_strip_apply kn hkn hs h1 h2 y _ r n).trans ?_
  rw [hy, View.readCov_eq_canon']
  show View.canon L ((Rect.unit (s := S128x384) ![0, o] S128x256.size inb).toLoadRect.idx (ix2 r n)) + _ = _
  rw [window_idx o inb r n hc]

/-- The zeroed canvas: the body's first store fills it with the zero word. -/
theorem canvas_0 (x0 : S1x28x128x256.Idx → EReal) (x1 : S28x128x256.Idx → EReal) (r : Fin 128) (cc : Fin 384) :
    View.canon (kernelRun0_A.sl.HS0_1 (F := Ideal)) (ix2 r cc) = canvas 0 x0 x1 r cc.val := by
  unfold kernelRun0_A.sl.HS0_1
  rw [View.canon_unit_zero (by funext a; match a with | ⟨0, _⟩ => rfl | ⟨1, _⟩ => rfl), canvas_zero]
  unfold k0_pay2
  rw [shapeCast_self]
  exact Ideal.ofBits_zero_f32

end Cert.KernelBridge

end
-- ==== Proof.EncodeCases.lean ====
/-
  The canvas after each of the 28 bands: band k's store is the window at column offset 2 k, and the canvas moves
  from canvas k to canvas (k + 1). Each case is the one-band argument (canvas_case) at the list, the window load and
  the cube the body's run names for that band.
-/
import proofs.«174060_j27281632264566_1_alg».proof.Proof.Encode

set_option maxRecDepth 16384

noncomputable section

namespace Cert.KernelBridge

open Cert.KernelIdeal Cert.KernelIdeal.Gen Cert.Spec Idealize.ShloMosaic Idealize.ShloMosaic.ValueIdx

variable (c : Dev nD) (arg2 : Memref sig .tc .vmem S1x28x128x256 .f32) (harg2 : arg2.IsWhole)
  (arg3 : Memref sig .tc .vmem S28x128x256 .f32) (harg3 : arg3.IsWhole)
  (arg5 : Memref sig .tc .vmem S128x384 .f32)
  (x0 : Vec Ideal S1x28x128x256 .f32) (x1 : Vec Ideal S28x128x256 .f32)

/-- After band 0 the canvas holds the bands below 1. -/
theorem canvas_1 (r : Fin 128) (cc : Fin 384) :
    View.canon (kernelRun0_A.sl.HS0_2 (F := Ideal) c arg2 harg2 arg3 harg3 arg5 x0 x1) (ix2 r cc) = canvas 1 x0 x1 r cc.val :=
  canvas_case 0 (by decide) 0 rfl _ _ _ _ arg5 (kernelRun0_A.sl.HS0_1 (F := Ideal))
    (kernelRun0_A.sl.HS0_2 (F := Ideal) c arg2 harg2 arg3 harg3 arg5 x0 x1)
    _ (kernelRun0_A.sl.v8 (F := Ideal) c arg5) _ x0 x1 rfl rfl rfl
    (cube_apply c arg2 harg2 arg3 harg3 x0 x1) (canvas_0 x0 x1) r cc

/-- After band 1 the canvas holds the bands below 2. -/
theorem canvas_2 (r : Fin 128) (cc : Fin 384) :
    View.canon (kernelRun0_A.sl.HS0_3 (F := Ideal) c arg2 harg2 arg3 harg3 arg5 x0 x1) (ix2 r cc) = canvas 2 x0 x1 r cc.val :=
  canvas_case 1 (by decide) 2 rfl _ _ _ _ arg5 (kernelRun0_A.sl.HS0_2 (F := Ideal) c arg2 harg2 arg3 harg3 arg5 x0 x1)
    (kernelRun0_A.sl.HS0_3 (F := Ideal) c arg2 harg2 arg3 harg3 arg5 x0 x1)
    _ (kernelRun0_A.sl.v15 (F := Ideal) c arg2 harg2 arg3 harg3 arg5 x0 x1) _ x0 x1 rfl rfl rfl
    (cube_apply c arg2 harg2 arg3 harg3 x0 x1) (canvas_1 c arg2 harg2 arg3 harg3 arg5 x0 x1) r cc

/-- After band 2 the canvas holds the bands below 3. -/
theorem canvas_3 (r : Fin 128) (cc : Fin 384) :
    View.canon (kernelRun0_A.sl.HS0_4 (F := Ideal) c arg2 harg2 arg3 harg3 arg5 x0 x1) (ix2 r cc) = canvas 3 x0 x1 r cc.val :=
  canvas_case 2 (by decide) 4 rfl _ _ _ _ arg5 (kernelRun0_A.sl.HS0_3 (F := Ideal) c arg2 harg2 arg3 harg3 arg5 x0 x1)
    (kernelRun0_A.sl.HS0_4 (F := Ideal) c arg2 harg2 arg3 harg3 arg5 x0 x1)
    _ (kernelRun0_A.sl.v22 (F := Ideal) c arg2 harg2 arg3 harg3 arg5 x0 x1) _ x0 x1 rfl rfl rfl
    (cube_apply c arg2 harg2 arg3 harg3 x0 x1) (canvas_2 c arg2 harg2 arg3 harg3 arg5 x0 x1) r cc

/-- After band 3 the canvas holds the bands below 4. -/
theorem canvas_4 (r : Fin 128) (cc : Fin 384) :
    View.canon (kernelRun0_A.sl.HS0_5 (F := Ideal) c arg2 harg2 arg3 harg3 arg5 x0 x1) (ix2 r cc) = canvas 4 x0 x1 r cc.val :=
  canvas_case 3 (by decide) 6 rfl _ _ _ _ arg5 (kernelRun0_A.sl.HS0_4 (F := Ideal) c arg2 harg2 arg3 harg3 arg5 x0 x1)
    (kernelRun0_A.sl.HS0_5 (F := Ideal) c arg2 harg2 arg3 harg3 arg5 x0 x1)
    _ (kernelRun0_A.sl.v29 (F := Ideal) c arg2 harg2 arg3 harg3 arg5 x0 x1) (kernelRun0_A.sl.r (F := Ideal) c arg2 harg2 arg3 harg3 x0 x1) x0 x1 rfl rfl rfl
    (cube_apply c arg2 harg2 arg3 harg3 x0 x1) (canvas_3 c arg2 harg2 arg3 harg3 arg5 x0 x1) r cc

/-- After band 4 the canvas holds the bands below 5. -/
theorem canvas_5 (r : Fin 128) (cc : Fin 384) :
    View.canon (kernelRun0_A.sl.HS0_6 (F := Ideal) c arg2 harg2 arg3 harg3 arg5 x0 x1) (ix2 r cc) = canvas 5 x0 x1 r cc.val :=
  canvas_case 4 (by decide) 8 rfl _ _ _ _ arg5 (kernelRun0_A.sl.HS0_5 (F := Ideal) c arg2 harg2 arg3 harg3 arg5 x0 x1)
    (kernelRun0_A.sl.HS0_6 (F := Ideal) c arg2 harg2 arg3 harg3 arg5 x0 x1)
    _ (kernelRun0_A.sl.v36 (F := Ideal) c arg2 harg2 arg3 harg3 arg5 x0 x1) (kernelRun0_A.sl.r (F := Ideal) c arg2 harg2 arg3 harg3 x0 x1) x0 x1 rfl rfl rfl
    (cube_apply c arg2 harg2 arg3 harg3 x0 x1) (canvas_4 c arg2 harg2 arg3 harg3 arg5 x0 x1) r cc

/-- After band 5 the canvas holds the bands below 6. -/
theorem canvas_6 (r : Fin 128) (cc : Fin 384) :
    View.canon (kernelRun0_A.sl.HS0_7 (F := Ideal) c arg2 harg2 arg3 harg3 arg5 x0 x1) (ix2 r cc) = canvas 6 x0 x1 r cc.val :=
  canvas_case 5 (by decide) 10 rfl _ _ _ _ arg5 (kernelRun0_A.sl.HS0_6 (F := Ideal) c arg2 harg2 arg3 harg3 arg5 x0 x1)
    (kernelRun0_A.sl.HS0_7 (F := Ideal) c arg2 harg2 arg3 harg3 arg5 x0 x1)
    _ (kernelRun0_A.sl.v43 (F := Ideal) c arg2 harg2 arg3 harg3 arg5 x0 x1) (kernelRun0_A.sl.r (F := Ideal) c arg2 harg2 arg3 harg3 x0 x1) x0 x1 rfl rfl rfl
    (cube_apply c arg2 harg2 arg3 harg3 x0 x1) (canvas_5 c arg2 harg2 arg3 harg3 arg5 x0 x1) r cc

/-- After band 6 the canvas holds the bands below 7. -/
theorem canvas_7 (r : Fin 128) (cc : Fin 384) :
    View.canon (kernelRun0_A.sl.HS0_8 (F := Ideal) c arg2 harg2 arg3 harg3 arg5 x0 x1) (ix2 r cc) = canvas 7 x0 x1 r cc.val :=
  canvas_case 6 (by decide) 12 rfl _ _ _ _ arg5 (kernelRun0_A.sl.HS0_7 (F := Ideal) c arg2 harg2 arg3 harg3 arg5 x0 x1)
    (kernelRun0_A.sl.HS0_8 (F := Ideal) c arg2 harg2 arg3 harg3 arg5 x0 x1)
    _ (kernelRun0_A.sl.v50 (F := Ideal) c arg2 harg2 arg3 harg3 arg5 x0 x1) (kernelRun0_A.sl.r (F := Ideal) c arg2 harg2 arg3 harg3 x0 x1) x0 x1 rfl rfl rfl
    (cube_apply c arg2 harg2 arg3 harg3 x0 x1) (canvas_6 c arg2 harg2 arg3 harg3 arg5 x0 x1) r cc

/-- After band 7 the canvas holds the bands below 8. -/
theorem canvas_8 (r : Fin 128) (cc : Fin 384) :
    View.canon (kernelRun0_A.sl.HS0_9 (F := Ideal) c arg2 harg2 arg3 harg3 arg5 x0 x1) (ix2 r cc) = canvas 8 x0 x1 r cc.val :=
  canvas_case 7 (by decide) 14 rfl _ _ _ _ arg5 (kernelRun0_A.sl.HS0_8 (F := Ideal) c arg2 harg2 arg3 harg3 arg5 x0 x1)
    (kernelRun0_A.sl.HS0_9 (F := Ideal) c arg2 harg2 arg3 harg3 arg5 x0 x1)
    _ (kernelRun0_A.sl.v57 (F := Ideal) c arg2 harg2 arg3 harg3 arg5 x0 x1) (kernelRun0_A.sl.r (F := Ideal) c arg2 harg2 arg3 harg3 x0 x1) x0 x1 rfl rfl rfl
    (cube_apply c arg2 harg2 arg3 harg3 x0 x1) (canvas_7 c arg2 harg2 arg3 harg3 arg5 x0 x1) r cc

/-- After band 8 the canvas holds the bands below 9. -/
theorem canvas_9 (r : Fin 128) (cc : Fin 384) :
    View.canon (kernelRun0_A.sl.HS0_10 (F := Ideal) c arg2 harg2 arg3 harg3 arg5 x0 x1) (ix2 r cc) = canvas 9 x0 x1 r cc.val :=
  canvas_case 8 (by decide) 16 rfl _ _ _ _ arg5 (kernelRun0_A.sl.HS0_9 (F := Ideal) c arg2 harg2 arg3 harg3 arg5 x0 x1)
    (kernelRun0_A.sl.HS0_10 (F := Ideal) c arg2 harg2 arg3 harg3 arg5 x0 x1)
    _ (kernelRun0_A.sl.v (F := Ideal) c arg2 harg2 arg3 harg3 arg5 x0 x1) (kernelRun0_A.sl.r (F := Ideal) c arg2 harg2 arg3 harg3 x0 x1) x0 x1 rfl rfl rfl
    (cube_apply c arg2 harg2 arg3 harg3 x0 x1) (canvas_8 c arg2 harg2 arg3 harg3 arg5 x0 x1) r cc

/-- After band 9 the canvas holds the bands below 10. -/
theorem canvas_10 (r : Fin 128) (cc : Fin 384) :
    View.canon (kernelRun0_A.sl.HS0_11 (F := Ideal) c arg2 harg2 arg3 harg3 arg5 x0 x1) (ix2 r cc) = canvas 10 x0 x1 r cc.val :=
  canvas_case 9 (by decide) 18 rfl _ _ _ _ arg5 (kernelRun0_A.sl.HS0_10 (F := Ideal) c arg2 harg2 arg3 harg3 arg5 x0 x1)
    (kernelRun0_A.sl.HS0_11 (F := Ideal) c arg2 harg2 arg3 harg3 arg5 x0 x1)
    _ (kernelRun0_A.sl.v71 (F := Ideal) c arg2 harg2 arg3 harg3 arg5 x0 x1) (kernelRun0_A.sl.r (F := Ideal) c arg2 harg2 arg3 harg3 x0 x1) x0 x1 rfl rfl rfl
    (cube_apply c arg2 harg2 arg3 harg3 x0 x1) (canvas_9 c arg2 harg2 arg3 harg3 arg5 x0 x1) r cc

/-- After band 10 the canvas holds the bands below 11. -/
theorem canvas_11 (r : Fin 128) (cc : Fin 384) :
    View.canon (kernelRun0_A.sl.HS0_12 (F := Ideal) c arg2 harg2 arg3 harg3 arg5 x0 x1) (ix2 r cc) = canvas 11 x0 x1 r cc.val :=
  canvas_case 10 (by decide) 20 rfl _ _ _ _ arg5 (kernelRun0_A.sl.HS0_11 (F := Ideal) c arg2 harg2 arg3 harg3 arg5 x0 x1)
    (kernelRun0_A.sl.HS0_12 (F := Ideal) c arg2 harg2 arg3 harg3 arg5 x0 x1)
    _ (kernelRun0_A.sl.v78 (F := Ideal) c arg2 harg2 arg3 harg3 arg5 x0 x1) (kernelRun0_A.sl.r (F := Ideal) c arg2 harg2 arg3 harg3 x0 x1) x0 x1 rfl rfl rfl
    (cube_apply c arg2 harg2 arg3 harg3 x0 x1) (canvas_10 c arg2 harg2 arg3 harg3 arg5 x0 x1) r cc

/-- After band 11 the canvas holds the bands below 12. -/
theorem canvas_12 (r : Fin 128) (cc : Fin 384) :
    View.canon (kernelRun0_A.sl.HS0_13 (F := Ideal) c arg2 harg2 arg3 harg3 arg5 x0 x1) (ix2 r cc) = canvas 12 x0 x1 r cc.val :=
  canvas_case 11 (by decide) 22 rfl _ _ _ _ arg5 (kernelRun0_A.sl.HS0_12 (F := Ideal) c arg2 harg2 arg3 harg3 arg5 x0 x1)
    (kernelRun0_A.sl.HS0_13 (F := Ideal) c arg2 harg2 arg3 harg3 arg5 x0 x1)
    _ (kernelRun0_A.sl.v85 (F := Ideal) c arg2 harg2 arg3 harg3 arg5 x0 x1) (kernelRun0_A.sl.r (F := Ideal) c arg2 harg2 arg3 harg3 x0 x1) x0 x1 rfl rfl rfl
    (cube_apply c arg2 harg2 arg3 harg3 x0 x1) (canvas_11 c arg2 harg2 arg3 harg3 arg5 x0 x1) r cc

/-- After band 12 the canvas holds the bands below 13. -/
theorem canvas_13 (r : Fin 128) (cc : Fin 384) :
    View.canon (kernelRun0_A.sl.HS0_14 (F := Ideal) c arg2 harg2 arg3 harg3 arg5 x0 x1) (ix2 r cc) = canvas 13 x0 x1 r cc.val :=
  canvas_case 12 (by decide) 24 rfl _ _ _ _ arg5 (kernelRun0_A.sl.HS0_13 (F := Ideal) c arg2 harg2 arg3 harg3 arg5 x0 x1)
    (kernelRun0_A.sl.HS0_14 (F := Ideal) c arg2 harg2 arg3 harg3 arg5 x0 x1)
    _ (kernelRun0_A.sl.v92 (F := Ideal) c arg2 harg2 arg3 harg3 arg5 x0 x1) (kernelRun0_A.sl.r (F := Ideal) c arg2 harg2 arg3 harg3 x0 x1) x0 x1 rfl rfl rfl
    (cube_apply c arg2 harg2 arg3 harg3 x0 x1) (canvas_12 c arg2 harg2 arg3 harg3 arg5 x0 x1) r cc

/-- After band 13 the canvas holds the bands below 14. -/
theorem canvas_14 (r : Fin 128) (cc : Fin 384) :
    View.canon (kernelRun0_A.sl.HS0_15 (F := Ideal) c arg2 harg2 arg3 harg3 arg5 x0 x1) (ix2 r cc) = canvas 14 x0 x1 r cc.val :=
  canvas_case 13 (by decide) 26 rfl _ _ _ _ arg5 (kernelRun0_A.sl.HS0_14 (F := Ideal) c arg2 harg2 arg3 harg3 arg5 x0 x1)
    (kernelRun0_A.sl.HS0_15 (F := Ideal) c arg2 harg2 arg3 harg3 arg5 x0 x1)
    _ (kernelRun0_A.sl.v_1 (F := Ideal) c arg2 harg2 arg3 harg3 arg5 x0 x1) (kernelRun0_A.sl.r (F := Ideal) c arg2 harg2 arg3 harg3 x0 x1) x0 x1 rfl rfl rfl
    (cube_apply c arg2 harg2 arg3 harg3 x0 x1) (canvas_13 c arg2 harg2 arg3 harg3 arg5 x0 x1) r cc

/-- After band 14 the canvas holds the bands below 15. -/
theorem canvas_15 (r : Fin 128) (cc : Fin 384) :
    View.canon (kernelRun0_A.sl.HS0_16 (F := Ideal) c arg2 harg2 arg3 harg3 arg5 x0 x1) (ix2 r cc) = canvas 15 x0 x1 r cc.val :=
  canvas_case 14 (by decide) 28 rfl _ _ _ _ arg5 (kernelRun0_A.sl.HS0_15 (F := Ideal) c arg2 harg2 arg3 harg3 arg5 x0 x1)
    (kernelRun0_A.sl.HS0_16 (F := Ideal) c arg2 harg2 arg3 harg3 arg5 x0 x1)
    _ (kernelRun0_A.sl.v106 (F := Ideal) c arg2 harg2 arg3 harg3 arg5 x0 x1) (kernelRun0_A.sl.r (F := Ideal) c arg2 harg2 arg3 harg3 x0 x1) x0 x1 rfl rfl rfl
    (cube_apply c arg2 harg2 arg3 harg3 x0 x1) (canvas_14 c arg2 harg2 arg3 harg3 arg5 x0 x1) r cc

/-- After band 15 the canvas holds the bands below 16. -/
theorem canvas_16 (r : Fin 128) (cc : Fin 384) :
    View.canon (kernelRun0_A.sl.HS0_17 (F := Ideal) c arg2 harg2 arg3 harg3 arg5 x0 x1) (ix2 r cc) = canvas 16 x0 x1 r cc.val :=
  canvas_case 15 (by decide) 30 rfl _ _ _ _ arg5 (kernelRun0_A.sl.HS0_16 (F := Ideal) c arg2 harg2 arg3 harg3 arg5 x0 x1)
    (kernelRun0_A.sl.HS0_17 (F := Ideal) c arg2 harg2 arg3 harg3 arg5 x0 x1)
    _ (kernelRun0_A.sl.v113 (F := Ideal) c arg2 harg2 arg3 harg3 arg5 x0 x1) (kernelRun0_A.sl.r (F := Ideal) c arg2 harg2 arg3 harg3 x0 x1) x0 x1 rfl rfl rfl
    (cube_apply c arg2 harg2 arg3 harg3 x0 x1) (canvas_15 c arg2 harg2 arg3 harg3 arg5 x0 x1) r cc

/-- After band 16 the canvas holds the bands below 17. -/
theorem canvas_17 (r : Fin 128) (cc : Fin 384) :
    View.canon (kernelRun0_A.sl.HS0_18 (F := Ideal) c arg2 harg2 arg3 harg3 arg5 x0 x1) (ix2 r cc) = canvas 17 x0 x1 r cc.val :=
  canvas_case 16 (by decide) 32 rfl _ _ _ _ arg5 (kernelRun0_A.sl.HS0_17 (F := Ideal) c arg2 harg2 arg3 harg3 arg5 x0 x1)
    (kernelRun0_A.sl.HS0_18 (F := Ideal) c arg2 harg2 arg3 harg3 arg5 x0 x1)
    _ (kernelRun0_A.sl.v120 (F := Ideal) c arg2 harg2 arg3 harg3 arg5 x0 x1) (kernelRun0_A.sl.r (F := Ideal) c arg2 harg2 arg3 harg3 x0 x1) x0 x1 rfl rfl rfl
    (cube_apply c arg2 harg2 arg3 harg3 x0 x1) (canvas_16 c arg2 harg2 arg3 harg3 arg5 x0 x1) r cc

/-- After band 17 the canvas holds the bands below 18. -/
theorem canvas_18 (r : Fin 128) (cc : Fin 384) :
    View.canon (kernelRun0_A.sl.HS0_19 (F := Ideal) c arg2 harg2 arg3 harg3 arg5 x0 x1) (ix2 r cc) = canvas 18 x0 x1 r cc.val :=
  canvas_case 17 (by decide) 34 rfl _ _ _ _ arg5 (kernelRun0_A.sl.HS0_18 (F := Ideal) c arg2 harg2 arg3 harg3 arg5 x0 x1)
    (kernelRun0_A.sl.HS0_19 (F := Ideal) c arg2 harg2 arg3 harg3 arg5 x0 x1)
    _ (kernelRun0_A.sl.v127 (F := Ideal) c arg2 harg2 arg3 harg3 arg5 x0 x1) (kernelRun0_A.sl.r (F := Ideal) c arg2 harg2 arg3 harg3 x0 x1) x0 x1 rfl rfl rfl
    (cube_apply c arg2 harg2 arg3 harg3 x0 x1) (canvas_17 c arg2 harg2 arg3 harg3 arg5 x0 x1) r cc

/-- After band 18 the canvas holds the bands below 19. -/
theorem canvas_19 (r : Fin 128) (cc : Fin 384) :
    View.canon (kernelRun0_A.sl.HS0_20 (F := Ideal) c arg2 harg2 arg3 harg3 arg5 x0 x1) (ix2 r cc) = canvas 19 x0 x1 r cc.val :=
  canvas_case 18 (by decide) 36 rfl _ _ _ _ arg5 (kernelRun0_A.sl.HS0_19 (F := Ideal) c arg2 harg2 arg3 harg3 arg5 x0 x1)
    (kernelRun0_A.sl.HS0_20 (F := Ideal) c arg2 harg2 arg3 harg3 arg5 x0 x1)
    _ (kernelRun0_A.sl.v_2 (F := Ideal) c arg2 harg2 arg3 harg3 arg5 x0 x1) (kernelRun0_A.sl.r (F := Ideal) c arg2 harg2 arg3 harg3 x0 x1) x0 x1 rfl rfl rfl
    (cube_apply c arg2 harg2 arg3 harg3 x0 x1) (canvas_18 c arg2 harg2 arg3 harg3 arg5 x0 x1) r cc

/-- After band 19 the canvas holds the bands below 20. -/
theorem canvas_20 (r : Fin 128) (cc : Fin 384) :
    View.canon (kernelRun0_A.sl.HS0_21 (F := Ideal) c arg2 harg2 arg3 harg3 arg5 x0 x1) (ix2 r cc) = canvas 20 x0 x1 r cc.val :=
  canvas_case 19 (by decide) 38 rfl _ _ _ _ arg5 (kernelRun0_A.sl.HS0_20 (F := Ideal) c arg2 harg2 arg3 harg3 arg5 x0 x1)
    (kernelRun0_A.sl.HS0_21 (F := Ideal) c arg2 harg2 arg3 harg3 arg5 x0 x1)
    _ (kernelRun0_A.sl.v141 (F := Ideal) c arg2 harg2 arg3 harg3 arg5 x0 x1) (kernelRun0_A.sl.r (F := Ideal) c arg2 harg2 arg3 harg3 x0 x1) x0 x1 rfl rfl rfl
    (cube_apply c arg2 harg2 arg3 harg3 x0 x1) (canvas_19 c arg2 harg2 arg3 harg3 arg5 x0 x1) r cc

/-- After band 20 the canvas holds the bands below 21. -/
theorem canvas_21 (r : Fin 128) (cc : Fin 384) :
    View.canon (kernelRun0_A.sl.HS0_22 (F := Ideal) c arg2 harg2 arg3 harg3 arg5 x0 x1) (ix2 r cc) = canvas 21 x0 x1 r cc.val :=
  canvas_case 20 (by decide) 40 rfl _ _ _ _ arg5 (kernelRun0_A.sl.HS0_21 (F := Ideal) c arg2 harg2 arg3 harg3 arg5 x0 x1)
    (kernelRun0_A.sl.HS0_22 (F := Ideal) c arg2 harg2 arg3 harg3 arg5 x0 x1)
    _ (kernelRun0_A.sl.v148 (F := Ideal) c arg2 harg2 arg3 harg3 arg5 x0 x1) (kernelRun0_A.sl.r (F := Ideal) c arg2 harg2 arg3 harg3 x0 x1) x0 x1 rfl rfl rfl
    (cube_apply c arg2 harg2 arg3 harg3 x0 x1) (canvas_20 c arg2 harg2 arg3 harg3 arg5 x0 x1) r cc

/-- After band 21 the canvas holds the bands below 22. -/
theorem canvas_22 (r : Fin 128) (cc : Fin 384) :
    View.canon (kernelRun0_A.sl.HS0_23 (F := Ideal) c arg2 harg2 arg3 harg3 arg5 x0 x1) (ix2 r cc) = canvas 22 x0 x1 r cc.val :=
  canvas_case 21 (by decide) 42 rfl _ _ _ _ arg5 (kernelRun0_A.sl.HS0_22 (F := Ideal) c arg2 harg2 arg3 harg3 arg5 x0 x1)
    (kernelRun0_A.sl.HS0_23 (F := Ideal) c arg2 harg2 arg3 harg3 arg5 x0 x1)
    _ (kernelRun0_A.sl.v155 (F := Ideal) c arg2 harg2 arg3 harg3 arg5 x0 x1) (kernelRun0_A.sl.r (F := Ideal) c arg2 harg2 arg3 harg3 x0 x1) x0 x1 rfl rfl rfl
    (cube_apply c arg2 harg2 arg3 harg3 x0 x1) (canvas_21 c arg2 harg2 arg3 harg3 arg5 x0 x1) r cc

/-- After band 22 the canvas holds the bands below 23. -/
theorem canvas_23 (r : Fin 128) (cc : Fin 384) :
    View.canon (kernelRun0_A.sl.HS0_24 (F := Ideal) c arg2 harg2 arg3 harg3 arg5 x0 x1) (ix2 r cc) = canvas 23 x0 x1 r cc.val :=
  canvas_case 22 (by decide) 44 rfl _ _ _ _ arg5 (kernelRun0_A.sl.HS0_23 (F := Ideal) c arg2 harg2 arg3 harg3 arg5 x0 x1)
    (kernelRun0_A.sl.HS0_24 (F := Ideal) c arg2 harg2 arg3 harg3 arg5 x0 x1)
    _ (kernelRun0_A.sl.v162 (F := Ideal) c arg2 harg2 arg3 harg3 arg5 x0 x1) (kernelRun0_A.sl.r (F := Ideal) c arg2 harg2 arg3 harg3 x0 x1) x0 x1 rfl rfl rfl
    (cube_apply c arg2 harg2 arg3 harg3 x0 x1) (canvas_22 c arg2 harg2 arg3 harg3 arg5 x0 x1) r cc

/-- After band 23 the canvas holds the bands below 24. -/
theorem canvas_24 (r : Fin 128) (cc : Fin 384) :
    View.canon (kernelRun0_A.sl.HS0_25 (F := Ideal) c arg2 harg2 arg3 harg3 arg5 x0 x1) (ix2 r cc) = canvas 24 x0 x1 r cc.val :=
  canvas_case 23 (by decide) 46 rfl _ _ _ _ arg5 (kernelRun0_A.sl.HS0_24 (F := Ideal) c arg2 harg2 arg3 harg3 arg5 x0 x1)
    (kernelRun0_A.sl.HS0_25 (F := Ideal) c arg2 harg2 arg3 harg3 arg5 x0 x1)
    _ (kernelRun0_A.sl.v_3 (F := Ideal) c arg2 harg2 arg3 harg3 arg5 x0 x1) (kernelRun0_A.sl.r (F := Ideal) c arg2 harg2 arg3 harg3 x0 x1) x0 x1 rfl rfl rfl
    (cube_apply c arg2 harg2 arg3 harg3 x0 x1) (canvas_23 c arg2 harg2 arg3 harg3 arg5 x0 x1) r cc

/-- After band 24 the canvas holds the bands below 25. -/
theorem canvas_25 (r : Fin 128) (cc : Fin 384) :
    View.canon (kernelRun0_A.sl.HS0_26 (F := Ideal) c arg2 harg2 arg3 harg3 arg5 x0 x1) (ix2 r cc) = canvas 25 x0 x1 r cc.val :=
  canvas_case 24 (by decide) 48 rfl _ _ _ _ arg5 (kernelRun0_A.sl.HS0_25 (F := Ideal) c arg2 harg2 arg3 harg3 arg5 x0 x1)
    (kernelRun0_A.sl.HS0_26 (F := Ideal) c arg2 harg2 arg3 harg3 arg5 x0 x1)
    _ (kernelRun0_A.sl.v176 (F := Ideal) c arg2 harg2 arg3 harg3 arg5 x0 x1) (kernelRun0_A.sl.r (F := Ideal) c arg2 harg2 arg3 harg3 x0 x1) x0 x1 rfl rfl rfl
    (cube_apply c arg2 harg2 arg3 harg3 x0 x1) (canvas_24 c arg2 harg2 arg3 harg3 arg5 x0 x1) r cc

/-- After band 25 the canvas holds the bands below 26. -/
theorem canvas_26 (r : Fin 128) (cc : Fin 384) :
    View.canon (kernelRun0_A.sl.HS0_27 (F := Ideal) c arg2 harg2 arg3 harg3 arg5 x0 x1) (ix2 r cc) = canvas 26 x0 x1 r cc.val :=
  canvas_case 25 (by decide) 50 rfl _ _ _ _ arg5 (kernelRun0_A.sl.HS0_26 (F := Ideal) c arg2 harg2 arg3 harg3 arg5 x0 x1)
    (kernelRun0_A.sl.HS0_27 (F := Ideal) c arg2 harg2 arg3 harg3 arg5 x0 x1)
    _ (kernelRun0_A.sl.v183 (F := Ideal) c arg2 harg2 arg3 harg3 arg5 x0 x1) (kernelRun0_A.sl.r (F := Ideal) c arg2 harg2 arg3 harg3 x0 x1) x0 x1 rfl rfl rfl
    (cube_apply c arg2 harg2 arg3 harg3 x0 x1) (canvas_25 c arg2 harg2 arg3 harg3 arg5 x0 x1) r cc

/-- After band 26 the canvas holds the bands below 27. -/
theorem canvas_27 (r : Fin 128) (cc : Fin 384) :
    View.canon (kernelRun0_A.sl.HS0_28 (F := Ideal) c arg2 harg2 arg3 harg3 arg5 x0 x1) (ix2 r cc) = canvas 27 x0 x1 r cc.val :=
  canvas_case 26 (by decide) 52 rfl _ _ _ _ arg5 (kernelRun0_A.sl.HS0_27 (F := Ideal) c arg2 harg2 arg3 harg3 arg5 x0 x1)
    (kernelRun0_A.sl.HS0_28 (F := Ideal) c arg2 harg2 arg3 harg3 arg5 x0 x1)
    _ (kernelRun0_A.sl.v190 (F := Ideal) c arg2 harg2 arg3 harg3 arg5 x0 x1) (kernelRun0_A.sl.r (F := Ideal) c arg2 harg2 arg3 harg3 x0 x1) x0 x1 rfl rfl rfl
    (cube_apply c arg2 harg2 arg3 harg3 x0 x1) (canvas_26 c arg2 harg2 arg3 harg3 arg5 x0 x1) r cc

/-- After band 27 the canvas holds the bands below 28. -/
theorem canvas_28 (r : Fin 128) (cc : Fin 384) :
    View.canon (kernelRun0_A.sl.HS0_29 (F := Ideal) c arg2 harg2 arg3 harg3 arg5 x0 x1) (ix2 r cc) = canvas 28 x0 x1 r cc.val :=
  canvas_case 27 (by decide) 54 rfl _ _ _ _ arg5 (kernelRun0_A.sl.HS0_28 (F := Ideal) c arg2 harg2 arg3 harg3 arg5 x0 x1)
    (kernelRun0_A.sl.HS0_29 (F := Ideal) c arg2 harg2 arg3 harg3 arg5 x0 x1)
    _ (kernelRun0_A.sl.v197 (F := Ideal) c arg2 harg2 arg3 harg3 arg5 x0 x1) (kernelRun0_A.sl.r (F := Ideal) c arg2 harg2 arg3 harg3 x0 x1) x0 x1 rfl rfl rfl
    (cube_apply c arg2 harg2 arg3 harg3 x0 x1) (canvas_27 c arg2 harg2 arg3 harg3 arg5 x0 x1) r cc

end Cert.KernelBridge

end
-- ==== Proof.Decode.lean ====
/-
  The decode half of one grid point: the 28 strips stored into the output block.

  Band `l`'s strip is a load of the finished canvas through the window at column offset `2 l`, times band `l`'s slab of
  `phi`; at row `r` and column `n` that is `canvas 28 r (2 l + n) * phi (l, r, n)` (`strip_case`). The strips are the
  restrictions of ONE function of the block index, `blockG`, to the 28 slabs `(0, l, ·, ·)` of the output block
  (`piece_ok`), so the block the run leaves is `blockG`.
-/
import proofs.«174060_j27281632264566_1_alg».proof.Proof.EncodeCases

set_option maxRecDepth 16384

noncomputable section

namespace Cert.KernelBridge

open Cert.KernelIdeal Cert.KernelIdeal.Gen Cert.Spec Idealize.ShloMosaic Idealize.ShloMosaic.ValueIdx

/-- Band `l`'s decoded strip at row `r`, column `n` of a point's block. -/
def stripSpec (ln : ℕ) (hln : ln < 28) (x0 : S1x28x128x256.Idx → EReal) (x1 : S28x128x256.Idx → EReal)
    (r : Fin 128) (n : Fin 256) : EReal :=
  canvas 28 x0 x1 r (2 * ln + n.val) * x1 (ix3 ⟨ln, hln⟩ r n)

/-- The decoded block of one point as one function of the block index `(0, l, r, n)`. -/
def blockG (x0 : S1x28x128x256.Idx → EReal) (x1 : S28x128x256.Idx → EReal) : S1x28x128x256.Idx → EReal :=
  fun y => canvas 28 x0 x1 (y 2) (2 * (y 1).val + (y 3).val) * x1 (ix3 (y 1) (y 2) (y 3))

/-- ONE STRIP. The window load `v` of a list of canvas stores `L` that reads as the finished canvas, times band `l`'s
    slab of `phi`, cast to the shape of the store. -/
theorem strip_case (ln : ℕ) (hln : ln < 28) (o : ℕ) (ho : o = 2 * ln)
    (inb3 : ∀ a, (![ln, 0, 0] : Fin 3 → ℕ) a + S1x128x256.size a ≤ S28x128x256.size a)
    (h1 : S1x128x256.ShapeCasts S128x256) (h2 : S128x256.ShapeCasts S1x1x128x256)
    (M3 : Memref sig .tc .vmem S28x128x256 .f32) (hM3 : M3.IsWhole)
    (M5 : Memref sig .tc .vmem S128x384 .f32)
    (inb5 : ∀ a, (![0, o] : Fin 2 → ℕ) a + S128x256.size a ≤ S128x384.size a)
    (v : S128x256.Idx → EReal) (L : List (View.Piece (Elt Ideal) S128x384 .f32))
    (x0 : S1x28x128x256.Idx → EReal) (x1 : S28x128x256.Idx → EReal)
    (hv : v = M5.view.readCov L (Rect.unit (s := S128x384) ![0, o] S128x256.size inb5).toLoadRect)
    (hL : ∀ (r : Fin 128) (cc : Fin 384), View.canon L (ix2 r cc) = canvas 28 x0 x1 r cc.val)
    (r : Fin 128) (n : Fin 256) :
    shapeCast S1x1x128x256 (mulf (F := Ideal) (φ := .f32) v
        (shapeCast S128x256 (View.readAt (Elt Ideal) M3.view
          (Rect.unit (s := S28x128x256) ![ln, 0, 0] S1x128x256.size inb3).toLoadRect (hM3.unread x1)) h1)) h2
        (ix4 (0 : Fin 1) (0 : Fin 1) r n)
      = stripSpec ln hln x0 x1 r n := by
  subst hv ho
  refine (decode_strip_apply h1 h2 _ _ r n).trans ?_
  rw [slab_apply M3 hM3 ln hln inb3 x1 r n, View.readCov_eq_canon']
  show View.canon L ((Rect.unit (s := S128x384) ![0, 2 * ln] S128x256.size inb5).toLoadRect.idx (ix2 r n)) * _ = _
  rw [window_idx (2 * ln) inb5 r n (by have := n.isLt; omega), hL]
  rfl

/-- A strip stored through the slab `(0, l, ·, ·)` of the output block is `blockG` under that slab. -/
theorem piece_ok (ln : ℕ) (hln : ln < 28)
    (inb : ∀ a, (![0, ln, 0, 0] : Fin 4 → ℕ) a + S1x1x128x256.size a ≤ S1x28x128x256.size a)
    (x0 : S1x28x128x256.Idx → EReal) (x1 : S28x128x256.Idx → EReal)
    (w : S1x1x128x256.Idx → EReal)
    (hw : ∀ (r : Fin 128) (n : Fin 256), w (ix4 (0 : Fin 1) (0 : Fin 1) r n) = stripSpec ln hln x0 x1 r n)
    (x : S1x1x128x256.Idx) :
    w x = blockG x0 x1 ((Rect.unit (s := S1x28x128x256) ![0, ln, 0, 0] S1x1x128x256.size inb).emb x) := by
  obtain ⟨a, b, r, n, rfl⟩ : ∃ (a : Fin 1) (b : Fin 1) (r : Fin 128) (n : Fin 256), x = ix4 a b r n :=
    ⟨x 0, x 1, x 2, x 3, eq_ix4 x⟩
  obtain rfl : a = 0 := Subsingleton.elim _ _
  obtain rfl : b = 0 := Subsingleton.elim _ _
  have e : (Rect.unit (s := S1x28x128x256) ![0, ln, 0, 0] S1x1x128x256.size inb).emb (ix4 (0 : Fin 1) (0 : Fin 1) r n)
      = ix4 (0 : Fin 1) (⟨ln, hln⟩ : Fin 28) r n := by
    funext a; refine Fin.ext ?_
    match a with
    | ⟨0, _⟩ => show 0 + 1 * 0 = 0; omega
    | ⟨1, _⟩ => show ln + 1 * 0 = ln; omega
    | ⟨2, _⟩ => show 0 + 1 * r.val = r.val; omega
    | ⟨3, _⟩ => show 0 + 1 * n.val = n.val; omega
  rw [hw, e]
  rfl

end Cert.KernelBridge

end
-- ==== Proof.DecodeCases.lean ====
/-
  The 28 decoded strips: band l's store into the output block holds, at row r and column n, the finished canvas at
  column 2 l + n times phi (l, r, n). Each case is the one-strip argument at the payload, the window load and (where the
  product was computed in the part before) the product the body's run names for that band.
-/
import proofs.«174060_j27281632264566_1_alg».proof.Proof.Decode

set_option maxRecDepth 16384

noncomputable section

namespace Cert.KernelBridge

open Cert.KernelIdeal Cert.KernelIdeal.Gen Cert.Spec Idealize.ShloMosaic Idealize.ShloMosaic.ValueIdx

variable (c : Dev nD) (arg2 : Memref sig .tc .vmem S1x28x128x256 .f32) (harg2 : arg2.IsWhole)
  (arg3 : Memref sig .tc .vmem S28x128x256 .f32) (harg3 : arg3.IsWhole)
  (arg5 : Memref sig .tc .vmem S128x384 .f32)
  (x0 : Vec Ideal S1x28x128x256 .f32) (x1 : Vec Ideal S28x128x256 .f32)

/-- Band 0's decoded strip. -/
theorem strip_0 (r : Fin 128) (n : Fin 256) :
    k0_pay32 (kernelRun0_A.sl.v_4 (F := Ideal) c arg2 harg2 arg3 harg3 arg5 x0 x1)
      (View.readAt (Elt Ideal) arg3.view (Rect.unit (s := S28x128x256) ![0, 0, 0] S1x128x256.size inb_S28x128x256_S1x128x256_0_0_0).toLoadRect (harg3.unread x1))
      (ix4 (0 : Fin 1) (0 : Fin 1) r n) = stripSpec 0 (by decide) x0 x1 r n :=
  strip_case 0 (by decide) 0 rfl _ _ _ arg3 harg3 arg5 _ (kernelRun0_A.sl.v_4 (F := Ideal) c arg2 harg2 arg3 harg3 arg5 x0 x1) _ x0 x1 rfl
    (canvas_28 c arg2 harg2 arg3 harg3 arg5 x0 x1) r n

/-- Band 1's decoded strip. -/
theorem strip_1 (r : Fin 128) (n : Fin 256) :
    k0_pay33 (kernelRun0_A.sl.v211 (F := Ideal) c arg2 harg2 arg3 harg3 arg5 x0 x1)
      (View.readAt (Elt Ideal) arg3.view (Rect.unit (s := S28x128x256) ![1, 0, 0] S1x128x256.size inb_S28x128x256_S1x128x256_1_0_0).toLoadRect (harg3.unread x1))
      (ix4 (0 : Fin 1) (0 : Fin 1) r n) = stripSpec 1 (by decide) x0 x1 r n :=
  strip_case 1 (by decide) 2 rfl _ _ _ arg3 harg3 arg5 _ (kernelRun0_A.sl.v211 (F := Ideal) c arg2 harg2 arg3 harg3 arg5 x0 x1) _ x0 x1 rfl
    (canvas_28 c arg2 harg2 arg3 harg3 arg5 x0 x1) r n

/-- Band 2's decoded strip. -/
theorem strip_2 (r : Fin 128) (n : Fin 256) :
    k0_pay34 (kernelRun0_A.sl.v218 (F := Ideal) c arg2 harg2 arg3 harg3 arg5 x0 x1)
      (View.readAt (Elt Ideal) arg3.view (Rect.unit (s := S28x128x256) ![2, 0, 0] S1x128x256.size inb_S28x128x256_S1x128x256_2_0_0).toLoadRect (harg3.unread x1))
      (ix4 (0 : Fin 1) (0 : Fin 1) r n) = stripSpec 2 (by decide) x0 x1 r n :=
  strip_case 2 (by decide) 4 rfl _ _ _ arg3 harg3 arg5 _ (kernelRun0_A.sl.v218 (F := Ideal) c arg2 harg2 arg3 harg3 arg5 x0 x1) _ x0 x1 rfl
    (canvas_28 c arg2 harg2 arg3 harg3 arg5 x0 x1) r n

/-- Band 3's decoded strip. -/
theorem strip_3 (r : Fin 128) (n : Fin 256) :
    k0_pay36 (kernelRun0_A.sl.r_1 (F := Ideal) c arg2 harg2 arg3 harg3 arg5 x0 x1)
      (ix4 (0 : Fin 1) (0 : Fin 1) r n) = stripSpec 3 (by decide) x0 x1 r n :=
  strip_case 3 (by decide) 6 rfl _ _ _ arg3 harg3 arg5 _ (kernelRun0_A.sl.v225 (F := Ideal) c arg2 harg2 arg3 harg3 arg5 x0 x1) _ x0 x1 rfl
    (canvas_28 c arg2 harg2 arg3 harg3 arg5 x0 x1) r n

/-- Band 4's decoded strip. -/
theorem strip_4 (r : Fin 128) (n : Fin 256) :
    k0_pay37 (kernelRun0_A.sl.v232 (F := Ideal) c arg2 harg2 arg3 harg3 arg5 x0 x1)
      (View.readAt (Elt Ideal) arg3.view (Rect.unit (s := S28x128x256) ![4, 0, 0] S1x128x256.size inb_S28x128x256_S1x128x256_4_0_0).toLoadRect (harg3.unread x1))
      (ix4 (0 : Fin 1) (0 : Fin 1) r n) = stripSpec 4 (by decide) x0 x1 r n :=
  strip_case 4 (by decide) 8 rfl _ _ _ arg3 harg3 arg5 _ (kernelRun0_A.sl.v232 (F := Ideal) c arg2 harg2 arg3 harg3 arg5 x0 x1) _ x0 x1 rfl
    (canvas_28 c arg2 harg2 arg3 harg3 arg5 x0 x1) r n

/-- Band 5's decoded strip. -/
theorem strip_5 (r : Fin 128) (n : Fin 256) :
    k0_pay38 (kernelRun0_A.sl.v239 (F := Ideal) c arg2 harg2 arg3 harg3 arg5 x0 x1)
      (View.readAt (Elt Ideal) arg3.view (Rect.unit (s := S28x128x256) ![5, 0, 0] S1x128x256.size inb_S28x128x256_S1x128x256_5_0_0).toLoadRect (harg3.unread x1))
      (ix4 (0 : Fin 1) (0 : Fin 1) r n) = stripSpec 5 (by decide) x0 x1 r n :=
  strip_case 5 (by decide) 10 rfl _ _ _ arg3 harg3 arg5 _ (kernelRun0_A.sl.v239 (F := Ideal) c arg2 harg2 arg3 harg3 arg5 x0 x1) _ x0 x1 rfl
    (canvas_28 c arg2 harg2 arg3 harg3 arg5 x0 x1) r n

/-- Band 6's decoded strip. -/
theorem strip_6 (r : Fin 128) (n : Fin 256) :
    k0_pay39 (kernelRun0_A.sl.v246 (F := Ideal) c arg2 harg2 arg3 harg3 arg5 x0 x1)
      (View.readAt (Elt Ideal) arg3.view (Rect.unit (s := S28x128x256) ![6, 0, 0] S1x128x256.size inb_S28x128x256_S1x128x256_6_0_0).toLoadRect (harg3.unread x1))
      (ix4 (0 : Fin 1) (0 : Fin 1) r n) = stripSpec 6 (by decide) x0 x1 r n :=
  strip_case 6 (by decide) 12 rfl _ _ _ arg3 harg3 arg5 _ (kernelRun0_A.sl.v246 (F := Ideal) c arg2 harg2 arg3 harg3 arg5 x0 x1) _ x0 x1 rfl
    (canvas_28 c arg2 harg2 arg3 harg3 arg5 x0 x1) r n

/-- Band 7's decoded strip. -/
theorem strip_7 (r : Fin 128) (n : Fin 256) :
    k0_pay40 (kernelRun0_A.sl.v_5 (F := Ideal) c arg2 harg2 arg3 harg3 arg5 x0 x1)
      (View.readAt (Elt Ideal) arg3.view (Rect.unit (s := S28x128x256) ![7, 0, 0] S1x128x256.size inb_S28x128x256_S1x128x256_7_0_0).toLoadRect (harg3.unread x1))
      (ix4 (0 : Fin 1) (0 : Fin 1) r n) = stripSpec 7 (by decide) x0 x1 r n :=
  strip_case 7 (by decide) 14 rfl _ _ _ arg3 harg3 arg5 _ (kernelRun0_A.sl.v_5 (F := Ideal) c arg2 harg2 arg3 harg3 arg5 x0 x1) _ x0 x1 rfl
    (canvas_28 c arg2 harg2 arg3 harg3 arg5 x0 x1) r n

/-- Band 8's decoded strip. -/
theorem strip_8 (r : Fin 128) (n : Fin 256) :
    k0_pay41 (kernelRun0_A.sl.v260 (F := Ideal) c arg2 harg2 arg3 harg3 arg5 x0 x1)
      (View.readAt (Elt Ideal) arg3.view (Rect.unit (s := S28x128x256) ![8, 0, 0] S1x128x256.size inb_S28x128x256_S1x128x256_8_0_0).toLoadRect (harg3.unread x1))
      (ix4 (0 : Fin 1) (0 : Fin 1) r n) = stripSpec 8 (by decide) x0 x1 r n :=
  strip_case 8 (by decide) 16 rfl _ _ _ arg3 harg3 arg5 _ (kernelRun0_A.sl.v260 (F := Ideal) c arg2 harg2 arg3 harg3 arg5 x0 x1) _ x0 x1 rfl
    (canvas_28 c arg2 harg2 arg3 harg3 arg5 x0 x1) r n

/-- Band 9's decoded strip. -/
theorem strip_9 (r : Fin 128) (n : Fin 256) :
    k0_pay42 (kernelRun0_A.sl.v267 (F := Ideal) c arg2 harg2 arg3 harg3 arg5 x0 x1)
      (View.readAt (Elt Ideal) arg3.view (Rect.unit (s := S28x128x256) ![9, 0, 0] S1x128x256.size inb_S28x128x256_S1x128x256_9_0_0).toLoadRect (harg3.unread x1))
      (ix4 (0 : Fin 1) (0 : Fin 1) r n) = stripSpec 9 (by decide) x0 x1 r n :=
  strip_case 9 (by decide) 18 rfl _ _ _ arg3 harg3 arg5 _ (kernelRun0_A.sl.v267 (F := Ideal) c arg2 harg2 arg3 harg3 arg5 x0 x1) _ x0 x1 rfl
    (canvas_28 c arg2 harg2 arg3 harg3 arg5 x0 x1) r n

/-- Band 10's decoded strip. -/
theorem strip_10 (r : Fin 128) (n : Fin 256) :
    k0_pay44 (kernelRun0_A.sl.r_2 (F := Ideal) c arg2 harg2 arg3 harg3 arg5 x0 x1)
      (ix4 (0 : Fin 1) (0 : Fin 1) r n) = stripSpec 10 (by decide) x0 x1 r n :=
  strip_case 10 (by decide) 20 rfl _ _ _ arg3 harg3 arg5 _ (kernelRun0_A.sl.v274 (F := Ideal) c arg2 harg2 arg3 harg3 arg5 x0 x1) _ x0 x1 rfl
    (canvas_28 c arg2 harg2 arg3 harg3 arg5 x0 x1) r n

/-- Band 11's decoded strip. -/
theorem strip_11 (r : Fin 128) (n : Fin 256) :
    k0_pay45 (kernelRun0_A.sl.v281 (F := Ideal) c arg2 harg2 arg3 harg3 arg5 x0 x1)
      (View.readAt (Elt Ideal) arg3.view (Rect.unit (s := S28x128x256) ![11, 0, 0] S1x128x256.size inb_S28x128x256_S1x128x256_11_0_0).toLoadRect (harg3.unread x1))
      (ix4 (0 : Fin 1) (0 : Fin 1) r n) = stripSpec 11 (by decide) x0 x1 r n :=
  strip_case 11 (by decide) 22 rfl _ _ _ arg3 harg3 arg5 _ (kernelRun0_A.sl.v281 (F := Ideal) c arg2 harg2 arg3 harg3 arg5 x0 x1) _ x0 x1 rfl
    (canvas_28 c arg2 harg2 arg3 harg3 arg5 x0 x1) r n

/-- Band 12's decoded strip. -/
theorem strip_12 (r : Fin 128) (n : Fin 256) :
    k0_pay46 (kernelRun0_A.sl.v288 (F := Ideal) c arg2 harg2 arg3 harg3 arg5 x0 x1)
      (View.readAt (Elt Ideal) arg3.view (Rect.unit (s := S28x128x256) ![12, 0, 0] S1x128x256.size inb_S28x128x256_S1x128x256_12_0_0).toLoadRect (harg3.unread x1))
      (ix4 (0 : Fin 1) (0 : Fin 1) r n) = stripSpec 12 (by decide) x0 x1 r n :=
  strip_case 12 (by decide) 24 rfl _ _ _ arg3 harg3 arg5 _ (kernelRun0_A.sl.v288 (F := Ideal) c arg2 harg2 arg3 harg3 arg5 x0 x1) _ x0 x1 rfl
    (canvas_28 c arg2 harg2 arg3 harg3 arg5 x0 x1) r n

/-- Band 13's decoded strip. -/
theorem strip_13 (r : Fin 128) (n : Fin 256) :
    k0_pay47 (kernelRun0_A.sl.v295 (F := Ideal) c arg2 harg2 arg3 harg3 arg5 x0 x1)
      (View.readAt (Elt Ideal) arg3.view (Rect.unit (s := S28x128x256) ![13, 0, 0] S1x128x256.size inb_S28x128x256_S1x128x256_13_0_0).toLoadRect (harg3.unread x1))
      (ix4 (0 : Fin 1) (0 : Fin 1) r n) = stripSpec 13 (by decide) x0 x1 r n :=
  strip_case 13 (by decide) 26 rfl _ _ _ arg3 harg3 arg5 _ (kernelRun0_A.sl.v295 (F := Ideal) c arg2 harg2 arg3 harg3 arg5 x0 x1) _ x0 x1 rfl
    (canvas_28 c arg2 harg2 arg3 harg3 arg5 x0 x1) r n

/-- Band 14's decoded strip. -/
theorem strip_14 (r : Fin 128) (n : Fin 256) :
    k0_pay48 (kernelRun0_A.sl.v_6 (F := Ideal) c arg2 harg2 arg3 harg3 arg5 x0 x1)
      (View.readAt (Elt Ideal) arg3.view (Rect.unit (s := S28x128x256) ![14, 0, 0] S1x128x256.size inb_S28x128x256_S1x128x256_14_0_0).toLoadRect (harg3.unread x1))
      (ix4 (0 : Fin 1) (0 : Fin 1) r n) = stripSpec 14 (by decide) x0 x1 r n :=
  strip_case 14 (by decide) 28 rfl _ _ _ arg3 harg3 arg5 _ (kernelRun0_A.sl.v_6 (F := Ideal) c arg2 harg2 arg3 harg3 arg5 x0 x1) _ x0 x1 rfl
    (canvas_28 c arg2 harg2 arg3 harg3 arg5 x0 x1) r n

/-- Band 15's decoded strip. -/
theorem strip_15 (r : Fin 128) (n : Fin 256) :
    k0_pay49 (kernelRun0_A.sl.v309 (F := Ideal) c arg2 harg2 arg3 harg3 arg5 x0 x1)
      (View.readAt (Elt Ideal) arg3.view (Rect.unit (s := S28x128x256) ![15, 0, 0] S1x128x256.size inb_S28x128x256_S1x128x256_15_0_0).toLoadRect (harg3.unread x1))
      (ix4 (0 : Fin 1) (0 : Fin 1) r n) = stripSpec 15 (by decide) x0 x1 r n :=
  strip_case 15 (by decide) 30 rfl _ _ _ arg3 harg3 arg5 _ (kernelRun0_A.sl.v309 (F := Ideal) c arg2 harg2 arg3 harg3 arg5 x0 x1) _ x0 x1 rfl
    (canvas_28 c arg2 harg2 arg3 harg3 arg5 x0 x1) r n

/-- Band 16's decoded strip. -/
theorem strip_16 (r : Fin 128) (n : Fin 256) :
    k0_pay50 (kernelRun0_A.sl.v316 (F := Ideal) c arg2 harg2 arg3 harg3 arg5 x0 x1)
      (View.readAt (Elt Ideal) arg3.view (Rect.unit (s := S28x128x256) ![16, 0, 0] S1x128x256.size inb_S28x128x256_S1x128x256_16_0_0).toLoadRect (harg3.unread x1))
      (ix4 (0 : Fin 1) (0 : Fin 1) r n) = stripSpec 16 (by decide) x0 x1 r n :=
  strip_case 16 (by decide) 32 rfl _ _ _ arg3 harg3 arg5 _ (kernelRun0_A.sl.v316 (F := Ideal) c arg2 harg2 arg3 harg3 arg5 x0 x1) _ x0 x1 rfl
    (canvas_28 c arg2 harg2 arg3 harg3 arg5 x0 x1) r n

/-- Band 17's decoded strip. -/
theorem strip_17 (r : Fin 128) (n : Fin 256) :
    k0_pay52 (kernelRun0_A.sl.r_3 (F := Ideal) c arg2 harg2 arg3 harg3 arg5 x0 x1)
      (ix4 (0 : Fin 1) (0 : Fin 1) r n) = stripSpec 17 (by decide) x0 x1 r n :=
  strip_case 17 (by decide) 34 rfl _ _ _ arg3 harg3 arg5 _ (kernelRun0_A.sl.v323 (F := Ideal) c arg2 harg2 arg3 harg3 arg5 x0 x1) _ x0 x1 rfl
    (canvas_28 c arg2 harg2 arg3 harg3 arg5 x0 x1) r n

/-- Band 18's decoded strip. -/
theorem strip_18 (r : Fin 128) (n : Fin 256) :
    k0_pay53 (kernelRun0_A.sl.v330 (F := Ideal) c arg2 harg2 arg3 harg3 arg5 x0 x1)
      (View.readAt (Elt Ideal) arg3.view (Rect.unit (s := S28x128x256) ![18, 0, 0] S1x128x256.size inb_S28x128x256_S1x128x256_18_0_0).toLoadRect (harg3.unread x1))
      (ix4 (0 : Fin 1) (0 : Fin 1) r n) = stripSpec 18 (by decide) x0 x1 r n :=
  strip_case 18 (by decide) 36 rfl _ _ _ arg3 harg3 arg5 _ (kernelRun0_A.sl.v330 (F := Ideal) c arg2 harg2 arg3 harg3 arg5 x0 x1) _ x0 x1 rfl
    (canvas_28 c arg2 harg2 arg3 harg3 arg5 x0 x1) r n

/-- Band 19's decoded strip. -/
theorem strip_19 (r : Fin 128) (n : Fin 256) :
    k0_pay54 (kernelRun0_A.sl.v337 (F := Ideal) c arg2 harg2 arg3 harg3 arg5 x0 x1)
      (View.readAt (Elt Ideal) arg3.view (Rect.unit (s := S28x128x256) ![19, 0, 0] S1x128x256.size inb_S28x128x256_S1x128x256_19_0_0).toLoadRect (harg3.unread x1))
      (ix4 (0 : Fin 1) (0 : Fin 1) r n) = stripSpec 19 (by decide) x0 x1 r n :=
  strip_case 19 (by decide) 38 rfl _ _ _ arg3 harg3 arg5 _ (kernelRun0_A.sl.v337 (F := Ideal) c arg2 harg2 arg3 harg3 arg5 x0 x1) _ x0 x1 rfl
    (canvas_28 c arg2 harg2 arg3 harg3 arg5 x0 x1) r n

/-- Band 20's decoded strip. -/
theorem strip_20 (r : Fin 128) (n : Fin 256) :
    k0_pay55 (kernelRun0_A.sl.v344 (F := Ideal) c arg2 harg2 arg3 harg3 arg5 x0 x1)
      (View.readAt (Elt Ideal) arg3.view (Rect.unit (s := S28x128x256) ![20, 0, 0] S1x128x256.size inb_S28x128x256_S1x128x256_20_0_0).toLoadRect (harg3.unread x1))
      (ix4 (0 : Fin 1) (0 : Fin 1) r n) = stripSpec 20 (by decide) x0 x1 r n :=
  strip_case 20 (by decide) 40 rfl _ _ _ arg3 harg3 arg5 _ (kernelRun0_A.sl.v344 (F := Ideal) c arg2 harg2 arg3 harg3 arg5 x0 x1) _ x0 x1 rfl
    (canvas_28 c arg2 harg2 arg3 harg3 arg5 x0 x1) r n

/-- Band 21's decoded strip. -/
theorem strip_21 (r : Fin 128) (n : Fin 256) :
    k0_pay56 (kernelRun0_A.sl.v_7 (F := Ideal) c arg2 harg2 arg3 harg3 arg5 x0 x1)
      (View.readAt (Elt Ideal) arg3.view (Rect.unit (s := S28x128x256) ![21, 0, 0] S1x128x256.size inb_S28x128x256_S1x128x256_21_0_0).toLoadRect (harg3.unread x1))
      (ix4 (0 : Fin 1) (0 : Fin 1) r n) = stripSpec 21 (by decide) x0 x1 r n :=
  strip_case 21 (by decide) 42 rfl _ _ _ arg3 harg3 arg5 _ (kernelRun0_A.sl.v_7 (F := Ideal) c arg2 harg2 arg3 harg3 arg5 x0 x1) _ x0 x1 rfl
    (canvas_28 c arg2 harg2 arg3 harg3 arg5 x0 x1) r n

/-- Band 22's decoded strip. -/
theorem strip_22 (r : Fin 128) (n : Fin 256) :
    k0_pay57 (kernelRun0_A.sl.v358 (F := Ideal) c arg2 harg2 arg3 harg3 arg5 x0 x1)
      (View.readAt (Elt Ideal) arg3.view (Rect.unit (s := S28x128x256) ![22, 0, 0] S1x128x256.size inb_S28x128x256_S1x128x256_22_0_0).toLoadRect (harg3.unread x1))
      (ix4 (0 : Fin 1) (0 : Fin 1) r n) = stripSpec 22 (by decide) x0 x1 r n :=
  strip_case 22 (by decide) 44 rfl _ _ _ arg3 harg3 arg5 _ (kernelRun0_A.sl.v358 (F := Ideal) c arg2 harg2 arg3 harg3 arg5 x0 x1) _ x0 x1 rfl
    (canvas_28 c arg2 harg2 arg3 harg3 arg5 x0 x1) r n

/-- Band 23's decoded strip. -/
theorem strip_23 (r : Fin 128) (n : Fin 256) :
    k0_pay58 (kernelRun0_A.sl.v365 (F := Ideal) c arg2 harg2 arg3 harg3 arg5 x0 x1)
      (View.readAt (Elt Ideal) arg3.view (Rect.unit (s := S28x128x256) ![23, 0, 0] S1x128x256.size inb_S28x128x256_S1x128x256_23_0_0).toLoadRect (harg3.unread x1))
      (ix4 (0 : Fin 1) (0 : Fin 1) r n) = stripSpec 23 (by decide) x0 x1 r n :=
  strip_case 23 (by decide) 46 rfl _ _ _ arg3 harg3 arg5 _ (kernelRun0_A.sl.v365 (F := Ideal) c arg2 harg2 arg3 harg3 arg5 x0 x1) _ x0 x1 rfl
    (canvas_28 c arg2 harg2 arg3 harg3 arg5 x0 x1) r n

/-- Band 24's decoded strip. -/
theorem strip_24 (r : Fin 128) (n : Fin 256) :
    k0_pay60 (kernelRun0_A.sl.r_4 (F := Ideal) c arg2 harg2 arg3 harg3 arg5 x0 x1)
      (ix4 (0 : Fin 1) (0 : Fin 1) r n) = stripSpec 24 (by decide) x0 x1 r n :=
  strip_case 24 (by decide) 48 rfl _ _ _ arg3 harg3 arg5 _ (kernelRun0_A.sl.v372 (F := Ideal) c arg2 harg2 arg3 harg3 arg5 x0 x1) _ x0 x1 rfl
    (canvas_28 c arg2 harg2 arg3 harg3 arg5 x0 x1) r n

/-- Band 25's decoded strip. -/
theorem strip_25 (r : Fin 128) (n : Fin 256) :
    k0_pay61 (kernelRun0_A.sl.v379 (F := Ideal) c arg2 harg2 arg3 harg3 arg5 x0 x1)
      (View.readAt (Elt Ideal) arg3.view (Rect.unit (s := S28x128x256) ![25, 0, 0] S1x128x256.size inb_S28x128x256_S1x128x256_25_0_0).toLoadRect (harg3.unread x1))
      (ix4 (0 : Fin 1) (0 : Fin 1) r n) = stripSpec 25 (by decide) x0 x1 r n :=
  strip_case 25 (by decide) 50 rfl _ _ _ arg3 harg3 arg5 _ (kernelRun0_A.sl.v379 (F := Ideal) c arg2 harg2 arg3 harg3 arg5 x0 x1) _ x0 x1 rfl
    (canvas_28 c arg2 harg2 arg3 harg3 arg5 x0 x1) r n

/-- Band 26's decoded strip. -/
theorem strip_26 (r : Fin 128) (n : Fin 256) :
    k0_pay62 (kernelRun0_A.sl.v386 (F := Ideal) c arg2 harg2 arg3 harg3 arg5 x0 x1)
      (View.readAt (Elt Ideal) arg3.view (Rect.unit (s := S28x128x256) ![26, 0, 0] S1x128x256.size inb_S28x128x256_S1x128x256_26_0_0).toLoadRect (harg3.unread x1))
      (ix4 (0 : Fin 1) (0 : Fin 1) r n) = stripSpec 26 (by decide) x0 x1 r n :=
  strip_case 26 (by decide) 52 rfl _ _ _ arg3 harg3 arg5 _ (kernelRun0_A.sl.v386 (F := Ideal) c arg2 harg2 arg3 harg3 arg5 x0 x1) _ x0 x1 rfl
    (canvas_28 c arg2 harg2 arg3 harg3 arg5 x0 x1) r n

/-- Band 27's decoded strip. -/
theorem strip_27 (r : Fin 128) (n : Fin 256) :
    k0_pay1 (kernelRun0_A.sl.r_5 (F := Ideal) c arg2 harg2 arg3 harg3 arg5 x0 x1)
      (ix4 (0 : Fin 1) (0 : Fin 1) r n) = stripSpec 27 (by decide) x0 x1 r n :=
  strip_case 27 (by decide) 54 rfl _ _ _ arg3 harg3 arg5 _ (kernelRun0_A.sl.v393 (F := Ideal) c arg2 harg2 arg3 harg3 arg5 x0 x1) _ x0 x1 rfl
    (canvas_28 c arg2 harg2 arg3 harg3 arg5 x0 x1) r n

/-- Every strip the body's run stores into the output block is blockG under its slab. -/
theorem pieces_ok (i : grid0.Coords) (arg4 : Memref sig .tc .vmem S1x28x128x256 .f32) (harg4 : arg4.IsWhole) (harg5 : arg5.IsWhole) :
    ∀ p ∈ (kernelRun0_A (F := Ideal) c i arg2 harg2 arg3 harg3 arg4 harg4 arg5 harg5 x0 x1).1,
      ∀ x : p.1.shape.Idx, p.2 x = blockG x0 x1 (p.1.emb x) := by
  unfold kernelRun0_A
  dsimp only
  refine List.forall_mem_cons.2 ⟨piece_ok 27 (by decide) inb_S1x28x128x256_S1x1x128x256_0_27_0_0 x0 x1 _ (strip_27 c arg2 harg2 arg3 harg3 arg5 x0 x1), ?_⟩
  refine List.forall_mem_cons.2 ⟨piece_ok 26 (by decide) inb_S1x28x128x256_S1x1x128x256_0_26_0_0 x0 x1 _ (strip_26 c arg2 harg2 arg3 harg3 arg5 x0 x1), ?_⟩
  refine List.forall_mem_cons.2 ⟨piece_ok 25 (by decide) inb_S1x28x128x256_S1x1x128x256_0_25_0_0 x0 x1 _ (strip_25 c arg2 harg2 arg3 harg3 arg5 x0 x1), ?_⟩
  refine List.forall_mem_cons.2 ⟨piece_ok 24 (by decide) inb_S1x28x128x256_S1x1x128x256_0_24_0_0 x0 x1 _ (strip_24 c arg2 harg2 arg3 harg3 arg5 x0 x1), ?_⟩
  refine List.forall_mem_cons.2 ⟨piece_ok 23 (by decide) inb_S1x28x128x256_S1x1x128x256_0_23_0_0 x0 x1 _ (strip_23 c arg2 harg2 arg3 harg3 arg5 x0 x1), ?_⟩
  refine List.forall_mem_cons.2 ⟨piece_ok 22 (by decide) inb_S1x28x128x256_S1x1x128x256_0_22_0_0 x0 x1 _ (strip_22 c arg2 harg2 arg3 harg3 arg5 x0 x1), ?_⟩
  refine List.forall_mem_cons.2 ⟨piece_ok 21 (by decide) inb_S1x28x128x256_S1x1x128x256_0_21_0_0 x0 x1 _ (strip_21 c arg2 harg2 arg3 harg3 arg5 x0 x1), ?_⟩
  refine List.forall_mem_cons.2 ⟨piece_ok 20 (by decide) inb_S1x28x128x256_S1x1x128x256_0_20_0_0 x0 x1 _ (strip_20 c arg2 harg2 arg3 harg3 arg5 x0 x1), ?_⟩
  refine List.forall_mem_cons.2 ⟨piece_ok 19 (by decide) inb_S1x28x128x256_S1x1x128x256_0_19_0_0 x0 x1 _ (strip_19 c arg2 harg2 arg3 harg3 arg5 x0 x1), ?_⟩
  refine List.forall_mem_cons.2 ⟨piece_ok 18 (by decide) inb_S1x28x128x256_S1x1x128x256_0_18_0_0 x0 x1 _ (strip_18 c arg2 harg2 arg3 harg3 arg5 x0 x1), ?_⟩
  refine List.forall_mem_cons.2 ⟨piece_ok 17 (by decide) inb_S1x28x128x256_S1x1x128x256_0_17_0_0 x0 x1 _ (strip_17 c arg2 harg2 arg3 harg3 arg5 x0 x1), ?_⟩
  refine List.forall_mem_cons.2 ⟨piece_ok 16 (by decide) inb_S1x28x128x256_S1x1x128x256_0_16_0_0 x0 x1 _ (strip_16 c arg2 harg2 arg3 harg3 arg5 x0 x1), ?_⟩
  refine List.forall_mem_cons.2 ⟨piece_ok 15 (by decide) inb_S1x28x128x256_S1x1x128x256_0_15_0_0 x0 x1 _ (strip_15 c arg2 harg2 arg3 harg3 arg5 x0 x1), ?_⟩
  refine List.forall_mem_cons.2 ⟨piece_ok 14 (by decide) inb_S1x28x128x256_S1x1x128x256_0_14_0_0 x0 x1 _ (strip_14 c arg2 harg2 arg3 harg3 arg5 x0 x1), ?_⟩
  refine List.forall_mem_cons.2 ⟨piece_ok 13 (by decide) inb_S1x28x128x256_S1x1x128x256_0_13_0_0 x0 x1 _ (strip_13 c arg2 harg2 arg3 harg3 arg5 x0 x1), ?_⟩
  refine List.forall_mem_cons.2 ⟨piece_ok 12 (by decide) inb_S1x28x128x256_S1x1x128x256_0_12_0_0 x0 x1 _ (strip_12 c arg2 harg2 arg3 harg3 arg5 x0 x1), ?_⟩
  refine List.forall_mem_cons.2 ⟨piece_ok 11 (by decide) inb_S1x28x128x256_S1x1x128x256_0_11_0_0 x0 x1 _ (strip_11 c arg2 harg2 arg3 harg3 arg5 x0 x1), ?_⟩
  refine List.forall_mem_cons.2 ⟨piece_ok 10 (by decide) inb_S1x28x128x256_S1x1x128x256_0_10_0_0 x0 x1 _ (strip_10 c arg2 harg2 arg3 harg3 arg5 x0 x1), ?_⟩
  refine List.forall_mem_cons.2 ⟨piece_ok 9 (by decide) inb_S1x28x128x256_S1x1x128x256_0_9_0_0 x0 x1 _ (strip_9 c arg2 harg2 arg3 harg3 arg5 x0 x1), ?_⟩
  refine List.forall_mem_cons.2 ⟨piece_ok 8 (by decide) inb_S1x28x128x256_S1x1x128x256_0_8_0_0 x0 x1 _ (strip_8 c arg2 harg2 arg3 harg3 arg5 x0 x1), ?_⟩
  refine List.forall_mem_cons.2 ⟨piece_ok 7 (by decide) inb_S1x28x128x256_S1x1x128x256_0_7_0_0 x0 x1 _ (strip_7 c arg2 harg2 arg3 harg3 arg5 x0 x1), ?_⟩
  refine List.forall_mem_cons.2 ⟨piece_ok 6 (by decide) inb_S1x28x128x256_S1x1x128x256_0_6_0_0 x0 x1 _ (strip_6 c arg2 harg2 arg3 harg3 arg5 x0 x1), ?_⟩
  refine List.forall_mem_cons.2 ⟨piece_ok 5 (by decide) inb_S1x28x128x256_S1x1x128x256_0_5_0_0 x0 x1 _ (strip_5 c arg2 harg2 arg3 harg3 arg5 x0 x1), ?_⟩
  refine List.forall_mem_cons.2 ⟨piece_ok 4 (by decide) inb_S1x28x128x256_S1x1x128x256_0_4_0_0 x0 x1 _ (strip_4 c arg2 harg2 arg3 harg3 arg5 x0 x1), ?_⟩
  refine List.forall_mem_cons.2 ⟨piece_ok 3 (by decide) inb_S1x28x128x256_S1x1x128x256_0_3_0_0 x0 x1 _ (strip_3 c arg2 harg2 arg3 harg3 arg5 x0 x1), ?_⟩
  refine List.forall_mem_cons.2 ⟨piece_ok 2 (by decide) inb_S1x28x128x256_S1x1x128x256_0_2_0_0 x0 x1 _ (strip_2 c arg2 harg2 arg3 harg3 arg5 x0 x1), ?_⟩
  refine List.forall_mem_cons.2 ⟨piece_ok 1 (by decide) inb_S1x28x128x256_S1x1x128x256_0_1_0_0 x0 x1 _ (strip_1 c arg2 harg2 arg3 harg3 arg5 x0 x1), ?_⟩
  refine List.forall_mem_cons.2 ⟨piece_ok 0 (by decide) inb_S1x28x128x256_S1x1x128x256_0_0_0_0 x0 x1 _ (strip_0 c arg2 harg2 arg3 harg3 arg5 x0 x1), ?_⟩
  intro p hp; cases hp

end Cert.KernelBridge

end
-- ==== Proof.KernelValue.lean ====
/-
  From one grid point's block to the whole output array.

  Grid point `t = (m-tile, batch)` stages batch `b`'s rows `[128 mt, 128 mt + 128)` of `x` and the same rows of `phi`, and
  writes the same rows of batch `b` of the output. The block its body leaves is `blockG` of the two input blocks
  (`out_block`); an input block's element `(0, l, r, n)` is the array's `(b, l, 128 mt + r, n)`, and the measurement of a
  row only reads that row, so `blockG` of the blocks is `Cert.Spec.G` of the arrays under the output block
  (`block_point`). The 64 output blocks tile the array (`cover`), so the array ends as `G` of the two argument arrays.
-/
import proofs.«174060_j27281632264566_1_alg».proof.Proof.Gen.KernelIdeal.Value
import proofs.«174060_j27281632264566_1_alg».proof.Proof.DecodeCases

set_option maxRecDepth 16384

noncomputable section

namespace Cert.KernelBridge

open Cert.KernelIdeal Cert.KernelIdeal.Gen Cert.Spec Idealize.ShloMosaic Idealize.ShloMosaic.ValueIdx
open Idealize.ShloMosaic.TcCoe Idealize.SL.Sem
open Idealize.ShloMosaic.Pipeline (Dat)

/-- The output block the body's run leaves is `blockG` of its two input blocks. -/
theorem out_block (c : Dev nD) (i : grid0.Coords) (arg2 : Memref sig .tc .vmem S1x28x128x256 .f32) (harg2 : arg2.IsWhole)
    (arg3 : Memref sig .tc .vmem S28x128x256 .f32) (harg3 : arg3.IsWhole)
    (arg4 : Memref sig .tc .vmem S1x28x128x256 .f32) (harg4 : arg4.IsWhole)
    (arg5 : Memref sig .tc .vmem S128x384 .f32) (harg5 : arg5.IsWhole)
    (x0 : Vec Ideal S1x28x128x256 .f32) (x1 : Vec Ideal S28x128x256 .f32) :
    out0_A_2 (F := Ideal) c i arg2 harg2 arg3 harg3 arg4 harg4 arg5 harg5 x0 x1 = blockG x0 x1 := by
  unfold out0_A_2
  rw [View.read_writes_junk_eq_canon]
  funext y
  exact View.canon_apply_of_pieces (blockG x0 x1) _
    (pieces_ok c arg2 harg2 arg3 harg3 arg5 x0 x1 i arg4 harg4 harg5) y
    (cover0_A_2 c i arg2 harg2 arg3 harg3 arg4 harg4 arg5 harg5 x0 x1 y)

/-- `blockG` of the blocks of batch `b`, m-tile `mt` is `G` of the arrays under the output block: block index
    `y = (0, l, r, n)` sits at array index `k = (b, l, 128 mt + r, n)`. -/
theorem block_point (X : SX.Idx → EReal) (P : SP.Idx → EReal)
    (x0 : S1x28x128x256.Idx → EReal) (x1 : S28x128x256.Idx → EReal) (b mt : ℕ)
    (hx0 : ∀ (y : S1x28x128x256.Idx) (k : SX.Idx), (k 0).val = b → (k 1).val = (y 1).val →
      (k 2).val = mt * 128 + (y 2).val → (k 3).val = (y 3).val → x0 y = X k)
    (hx1 : ∀ (y : S28x128x256.Idx) (k : SP.Idx), (k 0).val = (y 0).val →
      (k 1).val = mt * 128 + (y 1).val → (k 2).val = (y 2).val → x1 y = P k)
    (y : S1x28x128x256.Idx) (k : SX.Idx)
    (h0 : (k 0).val = b) (h1 : (k 1).val = (y 1).val) (h2 : (k 2).val = mt * 128 + (y 2).val)
    (h3 : (k 3).val = (y 3).val) :
    blockG x0 x1 y = G X P k := by
  obtain ⟨a, l, r, n, rfl⟩ : ∃ (a : Fin 1) (l : Fin 28) (r : Fin 128) (n : Fin 256), y = ix4 a l r n :=
    ⟨y 0, y 1, y 2, y 3, eq_ix4 y⟩
  obtain ⟨kb, kl, km, kn, rfl⟩ : ∃ (kb : Fin 32) (kl : Fin 28) (km : Fin 256) (kn : Fin 256), k = ix4 kb kl km kn :=
    ⟨k 0, k 1, k 2, k 3, eq_ix4 k⟩
  obtain rfl : kl = l := Fin.ext h1
  obtain rfl : kn = n := Fin.ext h3
  have h0' : kb.val = b := h0
  have h2' : km.val = mt * 128 + r.val := h2
  have eX : rowX x0 r = fun l' n' => X (ix4 kb l' km n') := by
    funext l' n'
    exact hx0 (ix4 (0 : Fin 1) l' r n') (ix4 kb l' km n') h0' rfl h2' rfl
  have eP : rowP x1 r = fun l' n' => P (ix3 l' km n') := by
    funext l' n'
    exact hx1 (ix3 l' r n') (ix3 l' km n') rfl h2' rfl
  show canvas 28 x0 x1 r (2 * kl.val + kn.val) * x1 (ix3 kl r kn) = Gat X P kb kl km kn
  unfold Gat canvas meas
  rw [eX, eP, hx1 (ix3 kl r kn) (ix3 kl km kn) rfl h2' rfl, Nat.add_comm (2 * kl.val) kn.val]

variable (m : (ℓ : Loc nD τ sig) → Buf (Elt Ideal) ℓ) (ρ : Dev nD → PrngReg)

/-- The printed index maps, decided over the 64 grid points: both inputs move with the output block (batch on axis 0 of
    `x` and of the output, m-tile on the row axis of all three), and the block indices stay in range. -/
theorem idx_facts : ∀ t : Fin cfg0.N,
    win0_0.index t (0 : Fin 4) = win0_2.index t (0 : Fin 4) ∧ win0_0.index t (1 : Fin 4) = 0
    ∧ win0_0.index t (2 : Fin 4) = win0_2.index t (2 : Fin 4) ∧ win0_0.index t (3 : Fin 4) = 0
    ∧ win0_1.index t (0 : Fin 3) = 0 ∧ win0_1.index t (1 : Fin 3) = win0_2.index t (2 : Fin 4)
    ∧ win0_1.index t (2 : Fin 3) = 0
    ∧ win0_2.index t (0 : Fin 4) < 32 ∧ win0_2.index t (1 : Fin 4) = 0
    ∧ win0_2.index t (2 : Fin 4) < 2 ∧ win0_2.index t (3 : Fin 4) = 0 :=
  (by decide +kernel : ∀ t : Fin grid0.N, _)

/-- Every (batch, m-tile) pair is some grid point's output block. -/
theorem idx_onto : ∀ (q0 : Fin 32) (q2 : Fin 2), ∃ t : Fin cfg0.N, win0_2.index t = ![q0.val, 0, q2.val, 0] :=
  (by decide +kernel : ∀ (q0 : Fin 32) (q2 : Fin 2), ∃ t : Fin grid0.N, win0_2.index t = ![q0.val, 0, q2.val, 0])

/-- WHAT POINT `t` WRITES BACK is block `t` of `G` of the argument arrays as the region finds them. -/
theorem flushed_eq (c : Dev nD) (t : Fin cfg0.N) :
    (dats m 0 c).flushed 2 t
      = ((cfg0.win 2).blk t).view.read (Elt Ideal) (G (V m c main_arg0) (V m c main_arg1)) := by
  rw [Cert.KernelIdeal.Value.flushed2_A, out_block]
  obtain ⟨e0, e1, e2, e3, f0, f1, f2, b0, b1, b2, b3⟩ := idx_facts t
  funext j
  show blockG (iblk m c 0 t) (iblk m c 1 t) j
    = G (V m c main_arg0) (V m c main_arg1) (((cfg0.win 2).blk t).view.emb j)
  refine block_point (V m c main_arg0) (V m c main_arg1) (iblk m c 0 t) (iblk m c 1 t)
    (win0_2.index t (0 : Fin 4)) (win0_2.index t (2 : Fin 4)) ?_ ?_ j _ ?_ ?_ ?_ ?_
  · intro y k k0 k1 k2 k3
    show V m c main_arg0 (((cfg0.win 0).blk t).view.emb y) = V m c main_arg0 k
    refine congrArg (V m c main_arg0) (funext fun a => Fin.ext ?_)
    match a with
    | ⟨0, _⟩ => show win0_0.index t (0 : Fin 4) * 1 + 1 * (y 0).val = (k 0).val; have hy0 : (y 0).val < 1 := (y 0).isLt; omega
    | ⟨1, _⟩ => show win0_0.index t (1 : Fin 4) * 28 + 1 * (y 1).val = (k 1).val; omega
    | ⟨2, _⟩ => show win0_0.index t (2 : Fin 4) * 128 + 1 * (y 2).val = (k 2).val; omega
    | ⟨3, _⟩ => show win0_0.index t (3 : Fin 4) * 256 + 1 * (y 3).val = (k 3).val; omega
  · intro y k k0 k1 k2
    show V m c main_arg1 (((cfg0.win 1).blk t).view.emb y) = V m c main_arg1 k
    refine congrArg (V m c main_arg1) (funext fun a => Fin.ext ?_)
    match a with
    | ⟨0, _⟩ => show win0_1.index t (0 : Fin 3) * 28 + 1 * (y 0).val = (k 0).val; omega
    | ⟨1, _⟩ => show win0_1.index t (1 : Fin 3) * 128 + 1 * (y 1).val = (k 1).val; omega
    | ⟨2, _⟩ => show win0_1.index t (2 : Fin 3) * 256 + 1 * (y 2).val = (k 2).val; omega
  · show win0_2.index t (0 : Fin 4) * 1 + 1 * (j 0).val = win0_2.index t (0 : Fin 4); have hj0 : (j 0).val < 1 := (j 0).isLt; omega
  · show win0_2.index t (1 : Fin 4) * 28 + 1 * (j 1).val = (j 1).val; omega
  · show win0_2.index t (2 : Fin 4) * 128 + 1 * (j 2).val = win0_2.index t (2 : Fin 4) * 128 + (j 2).val; omega
  · show win0_2.index t (3 : Fin 4) * 256 + 1 * (j 3).val = (j 3).val; omega

/-- An index of the array is in point `t`'s output block iff each coordinate is in the block's range on its axis. -/
theorem mem_blk (t : Fin cfg0.N) (i : S32x28x256x256.Idx) :
    i ∈ ((cfg0.win 2).blk t).view.set ↔ ∀ a : Fin 4, win0_2.index t a * S1x28x128x256.size a ≤ (i a).val
      ∧ (i a).val < win0_2.index t a * S1x28x128x256.size a + S1x28x128x256.size a := by
  show i ∈ ((View.whole main_v0).slice (win0_2.rect t)).set ↔ _
  rw [View.set_slice_whole, Rect.mem_set_unit]
  exact Iff.rfl

/-- The 64 output blocks cover the array: index `(b, l, m, n)` is in the block of batch `b`, m-tile `m / 128`. -/
theorem cover (i : S32x28x256x256.Idx) :
    ∃ t : Fin cfg0.N, (cfg0.win 2).flush t = true ∧ i ∈ ((cfg0.win 2).blk t).view.set := by
  have hi0 : (i 0).val < 32 := (i 0).isLt
  have hi1 : (i 1).val < 28 := (i 1).isLt
  have hi2 : (i 2).val < 256 := (i 2).isLt
  have hi3 : (i 3).val < 256 := (i 3).isLt
  obtain ⟨t, ht⟩ := idx_onto ⟨(i 0).val, hi0⟩ ⟨(i 2).val / 128, by omega⟩
  have q0 : win0_2.index t (0 : Fin 4) = (i 0).val := congrFun ht 0
  have q1 : win0_2.index t (1 : Fin 4) = 0 := congrFun ht 1
  have q2 : win0_2.index t (2 : Fin 4) = (i 2).val / 128 := congrFun ht 2
  have q3 : win0_2.index t (3 : Fin 4) = 0 := congrFun ht 3
  refine ⟨t, flush0_2 t, ?_⟩
  rw [mem_blk]
  intro a
  match a with
  | ⟨0, _⟩ => show win0_2.index t (0 : Fin 4) * 1 ≤ (i 0).val ∧ (i 0).val < win0_2.index t (0 : Fin 4) * 1 + 1; omega
  | ⟨1, _⟩ => show win0_2.index t (1 : Fin 4) * 28 ≤ (i 1).val ∧ (i 1).val < win0_2.index t (1 : Fin 4) * 28 + 28; omega
  | ⟨2, _⟩ => show win0_2.index t (2 : Fin 4) * 128 ≤ (i 2).val ∧ (i 2).val < win0_2.index t (2 : Fin 4) * 128 + 128; omega
  | ⟨3, _⟩ => show win0_2.index t (3 : Fin 4) * 256 ≤ (i 3).val ∧ (i 3).val < win0_2.index t (3 : Fin 4) * 256 + 256; omega

/-- THE ARRAY after the run: `G` of the two argument arrays. -/
theorem final (c : Dev nD) :
    (dats m 0 c).arrAt 2 cfg0.N
      = G (m ((c : Thread nD τ).loc main_arg0)) (m ((c : Thread nD τ).loc main_arg1)) :=
  (dats m 0 c).arrAt_eq_of_cover 2 (G (V m c main_arg0) (V m c main_arg1)) (fun t _ => flushed_eq m c t) cover

/-- The kernel's run: the result array ends at `G` of the argument arrays, the arguments unchanged. -/
theorem run : θ_run defs (onTc (τ := τ) (main (F := Ideal))) ⟨m, fun _ => 0, ρ⟩ fun r => ∀ c : Dev nD,
      r.2.mem ((c : Thread nD τ).loc main_v0)
        = G (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩)
    (Cert.KernelIdeal.Value.run_blocks m ρ)

end Cert.KernelBridge

end
-- ==== Proof.RefWord.lean ====
/-
  The column word of the dispersion. Band `l` (below 28) shifts column `n` (below 256) to column `n + 2 l`.
  As 32-bit words, `n + 2 * l` does not wrap: its value is at most 255 + 54 = 309, so it reads back, signed,
  as the natural number `n + 2 l`; it is never negative, so a select on "the word is negative" keeps it.
-/
import Idealize.ShloMosaic.Lib.ValueIdx

namespace Cert.RefBridge

open Idealize.ShloMosaic Idealize.ShloMosaic.ValueIdx

/-- The word `n + 2 * l` read unsigned is the natural number `n + 2 l`: no wrap-around below 2^32. -/
theorem colWord_toNat (a b : ℕ) (ha : a < 256) (hb : b < 28) :
    (IntOp.addi (BitVec.ofNat 32 a) (IntOp.muli 2#32 (BitVec.ofNat 32 b))).toNat = a + 2 * b := by
  unfold IntOp.addi IntOp.muli
  simp only [BitVec.toNat_add, BitVec.toNat_mul, BitVec.toNat_ofNat]
  omega

/-- Read signed it is the same number: it is below 2^31. -/
theorem colWord_toInt (a b : ℕ) (ha : a < 256) (hb : b < 28) :
    (IntOp.addi (BitVec.ofNat 32 a) (IntOp.muli 2#32 (BitVec.ofNat 32 b))).toInt = ((a + 2 * b : ℕ) : ℤ) := by
  rw [BitVec.toInt_eq_toNat_cond, colWord_toNat a b ha hb]
  rw [if_pos (by omega)]

/-- The word is not negative, so "if negative then word + 310 else word" is the word. -/
theorem colWord_select (a b : ℕ) (ha : a < 256) (hb : b < 28) :
    Scalar.select (IntOp.cmpi .slt (IntOp.addi (BitVec.ofNat 32 a) (IntOp.muli 2#32 (BitVec.ofNat 32 b))) 0#32)
      (IntOp.addi (IntOp.addi (BitVec.ofNat 32 a) (IntOp.muli 2#32 (BitVec.ofNat 32 b))) 310#32)
      (IntOp.addi (BitVec.ofNat 32 a) (IntOp.muli 2#32 (BitVec.ofNat 32 b)))
    = IntOp.addi (BitVec.ofNat 32 a) (IntOp.muli 2#32 (BitVec.ofNat 32 b)) := by
  have h := colWord_toInt a b ha hb
  generalize IntOp.addi (BitVec.ofNat 32 a) (IntOp.muli 2#32 (BitVec.ofNat 32 b)) = w at h ⊢
  have hc : IntOp.cmpi .slt w 0#32 = 0#1 := by
    unfold IntOp.cmpi
    show BitVec.ofBool (w.slt 0#32) = 0#1
    have hs : w.slt 0#32 = false := by
      rw [BitVec.slt, h]
      have h0 : (0#32 : BitVec 32).toInt = 0 := rfl
      rw [h0]
      exact decide_eq_false (by omega)
    rw [hs]; rfl
  rw [hc, select_zero]

end Cert.RefBridge
-- ==== Proof.RefSum.lean ====
/-
  The sums behind the scatter. A flat position `q` below 7168 is a band `l = q / 256` and a column
  `n = q % 256`; it is sent to measurement column `n + 2 l`. Summing a function of `q` over the positions
  sent to a fixed column `c` is a sum over the bands: band `l` contributes its one position with
  `n = c - 2 l` when `2 l <= c` and `c - 2 l < 256`, and nothing otherwise. Only the laws of a commutative
  monoid are used. Also: a sum over a rank-3 index set is the triple sum over the coordinates.
-/
import Idealize.ShloMosaic.Lib.ValueIdx

noncomputable section

open scoped BigOperators

namespace Cert.RefBridge

open Idealize.ShloMosaic Idealize.ShloMosaic.ValueIdx

/-- Band and column to flat position: `(l, n) ↦ 256 l + n`, a bijection onto the positions below 7168. -/
def bandCol : Fin 28 × Fin 256 ≃ Fin 7168 where
  toFun p := ⟨p.1.val * 256 + p.2.val, by have := p.1.isLt; have := p.2.isLt; omega⟩
  invFun q := (⟨q.val / 256, by have := q.isLt; omega⟩, ⟨q.val % 256, by omega⟩)
  left_inv p := by
    obtain ⟨l, n⟩ := p
    have hn := n.isLt
    refine Prod.ext (Fin.ext ?_) (Fin.ext ?_)
    · show (l.val * 256 + n.val) / 256 = l.val; omega
    · show (l.val * 256 + n.val) % 256 = n.val; omega
  right_inv q := Fin.ext (by show q.val / 256 * 256 + q.val % 256 = q.val; omega)

theorem bandCol_val (l : Fin 28) (n : Fin 256) : (bandCol (l, n)).val = l.val * 256 + n.val := rfl

/-- The positions sent to column `c`, one band at a time. -/
theorem sum_band_col {M : Type*} [AddCommMonoid M] (g : Fin 7168 → M) (c : ℕ) :
    (∑ q : Fin 7168, if q.val % 256 + 2 * (q.val / 256) = c then g q else 0)
      = ∑ l : Fin 28, if 2 * l.val ≤ c then
          (if h : c - 2 * l.val < 256 then g (bandCol (l, ⟨c - 2 * l.val, h⟩)) else 0) else 0 := by
  rw [← Equiv.sum_comp bandCol, Fintype.sum_prod_type]
  refine Finset.sum_congr rfl fun l _ => ?_
  have hl := l.isLt
  have hcol : ∀ n : Fin 256,
      ((bandCol (l, n)).val % 256 + 2 * ((bandCol (l, n)).val / 256) = c) = (n.val + 2 * l.val = c) := by
    intro n
    have hn := n.isLt
    rw [bandCol_val]
    have e : (l.val * 256 + n.val) % 256 + 2 * ((l.val * 256 + n.val) / 256) = n.val + 2 * l.val := by omega
    rw [e]
  by_cases h1 : 2 * l.val ≤ c
  · rw [if_pos h1]
    by_cases h2 : c - 2 * l.val < 256
    · rw [dif_pos h2, Finset.sum_eq_single (⟨c - 2 * l.val, h2⟩ : Fin 256)]
      · refine if_pos ?_
        rw [hcol]
        show c - 2 * l.val + 2 * l.val = c
        omega
      · intro n _ hn
        refine if_neg ?_
        rw [hcol]
        intro hh
        exact hn (Fin.ext (by show n.val = c - 2 * l.val; omega))
      · intro hh
        exact absurd (Finset.mem_univ _) hh
    · rw [dif_neg h2]
      refine Finset.sum_eq_zero fun n _ => if_neg ?_
      rw [hcol]
      have hn := n.isLt
      omega
  · rw [if_neg h1]
    refine Finset.sum_eq_zero fun n _ => if_neg ?_
    rw [hcol]
    omega

/-- A rank-3 index set is the product of its three coordinate ranges … -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- … so a sum over it is the triple sum over the coordinates. -/
theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-- Two rank-3 indices built from coordinates are equal only if the coordinates are. -/
theorem ix3_inj {n0 n1 n2 : Nat} {a a' : Fin n0} {b b' : Fin n1} {c c' : Fin n2}
    (h : ix3 a b c = ix3 a' b' c') : a = a' ∧ b = b' ∧ c = c' :=
  ⟨congrFun h 0, congrFun h 1, congrFun h 2⟩

end Cert.RefBridge

end
-- ==== Proof.RefStages.lean ====
/-
  The stages around the scatter and the gather, read at an index.
  * The scatter indices and the gather's start indices: at flat position `q` both hold the word
    `q % 256 + 2 * (q / 256)` (column plus twice the band), which reads back, signed, as that natural number.
  * The updates: at (b, m, 256 l + n) the masked pixel `x (b, l, m, n) * phi (l, m, n)`.
  * The scatter's operand: zero everywhere.
  * The reshape and transpose after the gather, and the mask of the last product, as index bookkeeping.
-/
import proofs.«174060_j27281632264566_1_alg».proof.Proof.Gen.ReferenceIdeal.Read
import proofs.«174060_j27281632264566_1_alg».proof.Proof.RefWord
import proofs.«174060_j27281632264566_1_alg».proof.Proof.RefSum
import Idealize.ShloMosaic.PureOps.Ideal.Laws

noncomputable section

namespace Cert.RefBridge

open Cert.ReferenceIdeal Cert.ReferenceIdeal.Gen Cert.ReferenceIdeal.Read Idealize.ShloMosaic Idealize.ShloMosaic.ValueIdx

/-- The scatter index at flat position `q` is the column word of (q % 256, q / 256). -/
theorem scatterIdx_word (q : Fin 7168) :
    val_main_v21 (F := Ideal) (ix2 q 0)
      = IntOp.addi (BitVec.ofNat 32 (q.val % 256)) (IntOp.muli 2#32 (BitVec.ofNat 32 (q.val / 256))) := by
  have hq := q.isLt
  rw [val_main_v21_apply, val_main_v20_apply, val_main_v17_apply, val_main_v19_apply, val_main_v16_apply,
    val_main_v18_apply, val_main_c_0_apply, val_main_c_1_apply, val_main_v12_apply, val_main_v11_apply,
    val_main_v9_apply, val_main_v4_apply, val_main_v3_apply, val_main_v10_apply, val_main_v8_apply,
    val_main_v7_apply, val_main_c_apply, val_main_v6_apply, val_main_v5_apply]
  exact colWord_select (q.val % 256) (q.val / 256) (by omega) (by omega)

/-- Read signed, it is the column `q % 256 + 2 (q / 256)`. -/
theorem scatterIdx_toInt (q : Fin 7168) :
    (val_main_v21 (F := Ideal) (ix2 q 0)).toInt = ((q.val % 256 + 2 * (q.val / 256) : ℕ) : ℤ) := by
  have hq := q.isLt
  rw [scatterIdx_word]
  exact colWord_toInt (q.val % 256) (q.val / 256) (by omega) (by omega)

/-- The gather's start index at flat position `q` is the same word. -/
theorem gatherIdx_word (q : Fin 7168) :
    val_main_v28 (F := Ideal) (ix2 q 0)
      = IntOp.addi (BitVec.ofNat 32 (q.val % 256)) (IntOp.muli 2#32 (BitVec.ofNat 32 (q.val / 256))) := by
  have hq := q.isLt
  rw [val_main_v28_apply, val_main_v27_apply, val_main_v24_apply, val_main_v26_apply, val_main_v23_apply,
    val_main_v25_apply, val_main_c_2_apply, val_main_c_3_apply, val_main_v12_apply, val_main_v11_apply,
    val_main_v9_apply, val_main_v4_apply, val_main_v3_apply, val_main_v10_apply, val_main_v8_apply,
    val_main_v7_apply, val_main_c_apply, val_main_v6_apply, val_main_v5_apply]
  exact colWord_select (q.val % 256) (q.val / 256) (by omega) (by omega)

theorem gatherIdx_toInt (q : Fin 7168) :
    (val_main_v28 (F := Ideal) (ix2 q 0)).toInt = ((q.val % 256 + 2 * (q.val / 256) : ℕ) : ℤ) := by
  have hq := q.isLt
  rw [gatherIdx_word]
  exact colWord_toInt (q.val % 256) (q.val / 256) (by omega) (by omega)

/-- The update at (b, m, 256 l + n) is the masked pixel of band `l`, column `n`. -/
theorem updates_apply (x0 : (⟨S32x28x256x256, .f32⟩ : BufTy).Contents (Elt Ideal))
    (x1 : (⟨S28x256x256, .f32⟩ : BufTy).Contents (Elt Ideal))
    (b : Fin 32) (m : Fin 256) (l : Fin 28) (n : Fin 256) :
    val_main_v14 (F := Ideal) x0 x1 (ix3 b m (bandCol (l, n))) = x0 (ix4 b l m n) * x1 (ix3 l m n) := by
  have hb := b.isLt
  have hm := m.isLt
  have hl := l.isLt
  have hn := n.isLt
  have e14 : idx_main_v14 (ix3 b m (bandCol (l, n))) = ix4 b m l n := by
    funext a; refine Fin.ext ?_
    match a with
    | ⟨0, _⟩ => show ((b.val * 256 + m.val) * 7168 + (l.val * 256 + n.val)) / 1835008 = b.val; omega
    | ⟨1, _⟩ => show ((b.val * 256 + m.val) * 7168 + (l.val * 256 + n.val)) / 7168 % 256 = m.val; omega
    | ⟨2, _⟩ => show ((b.val * 256 + m.val) * 7168 + (l.val * 256 + n.val)) / 256 % 28 = l.val; omega
    | ⟨3, _⟩ => show ((b.val * 256 + m.val) * 7168 + (l.val * 256 + n.val)) % 256 = n.val; omega
  have e13 : idx_main_v13 (ix4 b m l n) = ix4 b l m n := by
    funext a
    match a with
    | ⟨0, _⟩ => rfl
    | ⟨1, _⟩ => rfl
    | ⟨2, _⟩ => rfl
    | ⟨3, _⟩ => rfl
  have e10 : idx_main_v0 (idx_main_v1 (ix4 b l m n)) = ix3 l m n := by
    funext a
    match a with
    | ⟨0, _⟩ => rfl
    | ⟨1, _⟩ => rfl
    | ⟨2, _⟩ => rfl
  rw [val_main_v14_apply, e14, val_main_v13_apply, e13, val_main_v2_apply, val_main_v1_apply, val_main_v0_apply,
    e10, Ideal.mulf_def]

/-- The scatter's operand is zero everywhere. -/
theorem zeros_apply (i : S32x256x310.Idx) : val_main_v15 (F := Ideal) i = 0 := by
  rw [val_main_v15_apply, val_main_cst_apply, Ideal.ofBits_def, Ideal.ofBits_zero_f32]

/-- After the gather: the result at (b, l, m, n) is the gathered array at (b, m, 256 l + n), times the mask. -/
theorem result_apply (x0 : (⟨S32x28x256x256, .f32⟩ : BufTy).Contents (Elt Ideal))
    (x1 : (⟨S28x256x256, .f32⟩ : BufTy).Contents (Elt Ideal))
    (b : Fin 32) (l : Fin 28) (m : Fin 256) (n : Fin 256) :
    val_main_v34 (F := Ideal) x0 x1 (ix4 b l m n)
      = val_main_v29 (F := Ideal) x0 x1 (ix3 b m (bandCol (l, n))) * x1 (ix3 l m n) := by
  have hb := b.isLt
  have hm := m.isLt
  have hl := l.isLt
  have hn := n.isLt
  have e31 : idx_main_v31 (ix4 b l m n) = ix4 b m l n := by
    funext a
    match a with
    | ⟨0, _⟩ => rfl
    | ⟨1, _⟩ => rfl
    | ⟨2, _⟩ => rfl
    | ⟨3, _⟩ => rfl
  have e30 : idx_main_v30 (ix4 b m l n) = ix3 b m (bandCol (l, n)) := by
    funext a; refine Fin.ext ?_
    match a with
    | ⟨0, _⟩ => show (((b.val * 256 + m.val) * 28 + l.val) * 256 + n.val) / 1835008 = b.val; omega
    | ⟨1, _⟩ => show (((b.val * 256 + m.val) * 28 + l.val) * 256 + n.val) / 7168 % 256 = m.val; omega
    | ⟨2, _⟩ => show (((b.val * 256 + m.val) * 28 + l.val) * 256 + n.val) % 7168 = l.val * 256 + n.val; omega
  have e33 : idx_main_v32 (idx_main_v33 (ix4 b l m n)) = ix3 l m n := by
    funext a
    match a with
    | ⟨0, _⟩ => rfl
    | ⟨1, _⟩ => rfl
    | ⟨2, _⟩ => rfl
  rw [val_main_v34_apply, val_main_v31_apply, e31, val_main_v30_apply, e30, val_main_v33_apply, val_main_v32_apply,
    e33, Ideal.mulf_def]

end Cert.RefBridge

end
-- ==== Proof.RefScatterIdx.lean ====
/-
  Where one update of the scatter lands. The scatter's operand is [32, 256, 310], its indices [7168, 1], its
  updates [32, 256, 7168]; the update's first two axes are window axes going to the operand's first two axes,
  the third operand axis is indexed by the scatter index. So the update at (b, m, q) lands at operand index
  (b, m, idx (q, 0)) whenever that signed index is a column below 310.
-/
import proofs.«174060_j27281632264566_1_alg».proof.Proof.Gen.ReferenceIdeal
import Idealize.ShloMosaic.Lib.ValueIdx

noncomputable section
namespace Cert.RefBridge
open Cert.ReferenceIdeal Cert.ReferenceIdeal.Gen Idealize.ShloMosaic Idealize.ShloMosaic.ValueIdx

abbrev sd : ScatterDims S32x256x310 S7168x1 S32x256x7168 := scatter_S32x256x310_S7168x1_S32x256x7168_01_2_2_1

theorem sd_start0 (j : S32x256x7168.Idx) (idx : IVec S7168x1 32) : sd.start j idx 0 = 0 := by
  unfold ScatterDims.start; rw [dif_neg (by decide)]
theorem sd_start1 (j : S32x256x7168.Idx) (idx : IVec S7168x1 32) : sd.start j idx 1 = 0 := by
  unfold ScatterDims.start; rw [dif_neg (by decide)]
theorem sd_start2 (b : Fin 32) (m : Fin 256) (q : Fin 7168) (idx : IVec S7168x1 32) :
    sd.start (ix3 b m q) idx 2 = (idx (ix2 q 0)).toInt := by
  unfold ScatterDims.start
  rw [dif_pos (by decide)]
  congr 2
  funext a; refine Fin.ext ?_
  match a with
  | ⟨0, _⟩ => rfl
  | ⟨1, _⟩ => rfl
theorem sd_window0 (b : Fin 32) (m : Fin 256) (q : Fin 7168) : sd.window (ix3 b m q) 0 = b.val := by
  unfold ScatterDims.window; rw [dif_pos (by decide)]; rfl
theorem sd_window1 (b : Fin 32) (m : Fin 256) (q : Fin 7168) : sd.window (ix3 b m q) 1 = m.val := by
  unfold ScatterDims.window; rw [dif_pos (by decide)]; rfl
theorem sd_window2 (j : S32x256x7168.Idx) : sd.window j 2 = 0 := by
  unfold ScatterDims.window; rw [dif_neg (by decide)]

theorem scatter_resultIdx (idx : IVec S7168x1 32) (b : Fin 32) (m : Fin 256) (q : Fin 7168) (c : Fin 310)
    (h : (idx (ix2 q 0)).toInt = (c.val : ℤ)) :
    sd.resultIdx? (ix3 b m q) idx = some (ix3 b m c) := by
  have hb : b.val < 32 := b.isLt
  have hm : m.val < 256 := m.isLt
  have hc : c.val < 310 := c.isLt
  unfold ScatterDims.resultIdx?
  have hall : ∀ a, 0 ≤ sd.start (ix3 b m q) idx a + sd.window (ix3 b m q) a ∧
      sd.start (ix3 b m q) idx a + sd.window (ix3 b m q) a < S32x256x310.size a := by
    intro a
    match a with
    | ⟨0, _⟩ => show 0 ≤ sd.start (ix3 b m q) idx 0 + sd.window (ix3 b m q) 0 ∧ sd.start (ix3 b m q) idx 0 + sd.window (ix3 b m q) 0 < (32 : ℕ); rw [sd_start0, sd_window0]; omega
    | ⟨1, _⟩ => show 0 ≤ sd.start (ix3 b m q) idx 1 + sd.window (ix3 b m q) 1 ∧ sd.start (ix3 b m q) idx 1 + sd.window (ix3 b m q) 1 < (256 : ℕ); rw [sd_start1, sd_window1]; omega
    | ⟨2, _⟩ => show 0 ≤ sd.start (ix3 b m q) idx 2 + sd.window (ix3 b m q) 2 ∧ sd.start (ix3 b m q) idx 2 + sd.window (ix3 b m q) 2 < (310 : ℕ); rw [sd_start2, sd_window2, h]; omega
  rw [dif_pos hall]
  congr 1
  funext a; refine Fin.ext ?_
  match a with
  | ⟨0, _⟩ => show (sd.start (ix3 b m q) idx 0 + sd.window (ix3 b m q) 0).toNat = b.val; rw [sd_start0, sd_window0]; omega
  | ⟨1, _⟩ => show (sd.start (ix3 b m q) idx 1 + sd.window (ix3 b m q) 1).toNat = m.val; rw [sd_start1, sd_window1]; omega
  | ⟨2, _⟩ => show (sd.start (ix3 b m q) idx 2 + sd.window (ix3 b m q) 2).toNat = c.val; rw [sd_start2, sd_window2, h]; omega

end Cert.RefBridge
-- ==== Proof.RefScatter.lean ====
/-
  The scatter-add read at one operand index. With scatter indices whose value at flat position `q` is the
  column `q % 256 + 2 (q / 256)` (always below 310), the update at (b', m', q) lands at (b', m', that column).
  So the operand element at (b, m, c) gains exactly the updates (b, m, q) with `q % 256 + 2 (q / 256) = c`:
  the sum over all updates landing there collapses, first on the two window coordinates, to a sum over `q`.
-/
import proofs.«174060_j27281632264566_1_alg».proof.Proof.RefScatterIdx
import proofs.«174060_j27281632264566_1_alg».proof.Proof.RefSum

noncomputable section

open scoped BigOperators

namespace Cert.RefBridge

open Cert.ReferenceIdeal Cert.ReferenceIdeal.Gen Idealize.ShloMosaic Idealize.ShloMosaic.ValueIdx

theorem scatterAdd_apply (x : S32x256x310.Idx → EReal) (idx : IVec S7168x1 32) (upd : S32x256x7168.Idx → EReal)
    (hidx : ∀ q : Fin 7168, (idx (ix2 q 0)).toInt = ((q.val % 256 + 2 * (q.val / 256) : ℕ) : ℤ))
    (b : Fin 32) (m : Fin 256) (c : Fin 310) :
    Ideal.hostScatterAdd sd x idx upd (ix3 b m c)
      = x (ix3 b m c)
        + ∑ q : Fin 7168, if q.val % 256 + 2 * (q.val / 256) = c.val then upd (ix3 b m q) else 0 := by
  have hres : ∀ (b' : Fin 32) (m' : Fin 256) (q : Fin 7168),
      sd.resultIdx? (ix3 b' m' q) idx
        = some (ix3 b' m' (⟨q.val % 256 + 2 * (q.val / 256), by have := q.isLt; omega⟩ : Fin 310)) :=
    fun b' m' q => scatter_resultIdx idx b' m' q _ (hidx q)
  unfold Ideal.hostScatterAdd
  refine congrArg (x (ix3 b m c) + ·) ?_
  rw [Finset.sum_filter, sum_idx3, Finset.sum_eq_single b]
  · rw [Finset.sum_eq_single m]
    · refine Finset.sum_congr rfl fun q _ => ?_
      rw [hres]
      by_cases hq : q.val % 256 + 2 * (q.val / 256) = c.val
      · rw [if_pos hq, if_pos]
        exact congrArg some (congrArg (fun k : Fin 310 => ix3 b m k) (Fin.ext hq))
      · rw [if_neg hq, if_neg]
        intro h
        exact hq (congrArg Fin.val (ix3_inj (Option.some.inj h)).2.2)
    · intro m' _ hm
      refine Finset.sum_eq_zero fun q _ => ?_
      rw [hres, if_neg]
      intro h
      exact hm (ix3_inj (Option.some.inj h)).2.1
    · intro h
      exact absurd (Finset.mem_univ _) h
  · intro b' _ hb
    refine Finset.sum_eq_zero fun m' _ => Finset.sum_eq_zero fun q _ => ?_
    rw [hres, if_neg]
    intro h
    exact hb (ix3_inj (Option.some.inj h)).1
  · intro h
    exact absurd (Finset.mem_univ _) h

end Cert.RefBridge

end
-- ==== Proof.RefGatherIdx.lean ====
/-
  What one result element of the gather reads. The gather's operand is [32, 256, 310], its start indices
  [7168, 1], its result [32, 256, 7168]; the result's first two axes are offset axes over the operand's first
  two axes, the operand's third axis is collapsed and indexed by the start index. So the result at (b, m, q)
  is the operand at (b, m, idx (q, 0)), that signed index clamped into [0, 309].
-/
import proofs.«174060_j27281632264566_1_alg».proof.Proof.Gen.ReferenceIdeal
import Idealize.ShloMosaic.Lib.ValueIdx

noncomputable section
namespace Cert.RefBridge
open Cert.ReferenceIdeal Cert.ReferenceIdeal.Gen Idealize.ShloMosaic Idealize.ShloMosaic.ValueIdx

abbrev gd : GatherDims S32x256x310 S7168x1 S32x256x7168 := gather_S32x256x310_S7168x1_S32x256x7168_01_2_n_n_2_1_322561

theorem gd_start0 (j : S32x256x7168.Idx) (idx : IVec S7168x1 32) : gd.start j idx 0 = 0 := by
  unfold GatherDims.start; rw [dif_neg (by decide)]
theorem gd_start1 (j : S32x256x7168.Idx) (idx : IVec S7168x1 32) : gd.start j idx 1 = 0 := by
  unfold GatherDims.start; rw [dif_neg (by decide)]
theorem gd_start2 (b : Fin 32) (m : Fin 256) (q : Fin 7168) (idx : IVec S7168x1 32) :
    gd.start (ix3 b m q) idx 2 = min (idx (ix2 q 0)).toInt.toNat 309 := by
  unfold GatherDims.start
  rw [dif_pos (by decide)]
  have hsi : gd.siIdx (ix3 b m q) ⟨List.idxOf (2 : Fin 3) gd.startIndexMap,
      List.idxOf_lt_length_iff.2 (by decide)⟩ = ix2 q 0 := by
    funext a; refine Fin.ext ?_
    match a with
    | ⟨0, _⟩ => rfl
    | ⟨1, _⟩ => rfl
  rw [hsi]
  rfl
theorem gd_batch (j : S32x256x7168.Idx) (a : Fin 3) : gd.batchCoord j a = 0 :=
  GatherDims.batchCoord_eq_zero _ _ _ List.not_mem_nil
theorem gd_off0 (b : Fin 32) (m : Fin 256) (q : Fin 7168) : gd.offCoord (ix3 b m q) 0 = b.val := by
  unfold GatherDims.offCoord; rw [dif_pos (by decide)]; rfl
theorem gd_off1 (b : Fin 32) (m : Fin 256) (q : Fin 7168) : gd.offCoord (ix3 b m q) 1 = m.val := by
  unfold GatherDims.offCoord; rw [dif_pos (by decide)]; rfl
theorem gd_off2 (j : S32x256x7168.Idx) : gd.offCoord j 2 = 0 := by
  unfold GatherDims.offCoord; rw [dif_neg (by decide)]

theorem gather_apply {α : Type} (x : S32x256x310.Idx → α) (idx : IVec S7168x1 32) (b : Fin 32) (m : Fin 256) (q : Fin 7168) :
    Host.gather gd x idx (ix3 b m q) = x (ix3 b m ⟨min (idx (ix2 q 0)).toInt.toNat 309, by omega⟩) := by
  unfold Host.gather
  congr 1
  funext a; refine Fin.ext ?_
  match a with
  | ⟨0, _⟩ => show gd.start (ix3 b m q) idx 0 + gd.batchCoord (ix3 b m q) 0 + gd.offCoord (ix3 b m q) 0 = b.val; rw [gd_start0, gd_batch, gd_off0]; omega
  | ⟨1, _⟩ => show gd.start (ix3 b m q) idx 1 + gd.batchCoord (ix3 b m q) 1 + gd.offCoord (ix3 b m q) 1 = m.val; rw [gd_start1, gd_batch, gd_off1]; omega
  | ⟨2, _⟩ => show gd.start (ix3 b m q) idx 2 + gd.batchCoord (ix3 b m q) 2 + gd.offCoord (ix3 b m q) 2 = min (idx (ix2 q 0)).toInt.toNat 309; rw [gd_start2, gd_batch, gd_off2]; rfl

end Cert.RefBridge
-- ==== Proof.RefBridge.lean ====
/-
  The reference program's result is the specification `G`.

  The scatter-add builds, for every batch element `b` and image row `m`, the measurement row: column `c`
  (below 310) holds the sum over the bands `l` with `2 l <= c` and `c - 2 l < 256` of the masked pixel
  `x (b, l, m, c - 2 l) * phi (l, m, c - 2 l)` — `Cert.Spec.meas` at column `c`. The gather then reads, for
  band `l` and column `n`, the measurement at column `n + 2 l` (never clamped: `n + 2 l <= 309`), and the last
  product masks it with `phi (l, m, n)`: `Cert.Spec.Gat`.
-/
import proofs.«174060_j27281632264566_1_alg».proof.Proof.Spec
import proofs.«174060_j27281632264566_1_alg».proof.Proof.RefStages
import proofs.«174060_j27281632264566_1_alg».proof.Proof.RefScatter
import proofs.«174060_j27281632264566_1_alg».proof.Proof.RefGatherIdx

noncomputable section

open scoped BigOperators

namespace Cert.RefBridge

open Cert.ReferenceIdeal Cert.ReferenceIdeal.Gen Cert.ReferenceIdeal.Read Idealize.ShloMosaic Idealize.ShloMosaic.ValueIdx

/-- The scattered array at (b, m, c) is row (b, m)'s measurement at column `c`. -/
theorem measurement_apply (x0 : (⟨S32x28x256x256, .f32⟩ : BufTy).Contents (Elt Ideal))
    (x1 : (⟨S28x256x256, .f32⟩ : BufTy).Contents (Elt Ideal))
    (b : Fin 32) (m : Fin 256) (c : Fin 310) :
    val_main_v22 (F := Ideal) x0 x1 (ix3 b m c)
      = Cert.Spec.meas (fun l n => x0 (ix4 b l m n)) (fun l n => x1 (ix3 l m n)) c.val := by
  unfold val_main_v22
  have hidx := scatterIdx_toInt
  generalize val_main_v21 (F := Ideal) = idx at hidx
  have hupd := updates_apply x0 x1 b m
  generalize val_main_v14 (F := Ideal) x0 x1 = upd at hupd
  have hz := zeros_apply
  generalize val_main_v15 (F := Ideal) = z at hz
  show Ideal.hostScatterAdd sd z idx upd (ix3 b m c) = _
  rw [scatterAdd_apply z idx upd hidx b m c, hz, zero_add, sum_band_col (fun q => upd (ix3 b m q)) c.val]
  unfold Cert.Spec.meas Cert.Spec.measUpTo
  refine Finset.sum_congr rfl fun l _ => ?_
  by_cases h1 : 2 * l.val ≤ c.val
  · rw [if_pos h1, if_pos ⟨l.isLt, h1⟩]
    unfold Cert.Spec.masked
    by_cases h2 : c.val - 2 * l.val < 256
    · rw [dif_pos h2, dif_pos h2]
      exact hupd l ⟨c.val - 2 * l.val, h2⟩
    · rw [dif_neg h2, dif_neg h2]
  · rw [if_neg h1, if_neg (fun h => h1 h.2)]

/-- The gathered array at (b, m, 256 l + n) is the scattered array at (b, m, n + 2 l). -/
theorem gathered_apply (x0 : (⟨S32x28x256x256, .f32⟩ : BufTy).Contents (Elt Ideal))
    (x1 : (⟨S28x256x256, .f32⟩ : BufTy).Contents (Elt Ideal))
    (b : Fin 32) (m : Fin 256) (l : Fin 28) (n : Fin 256) :
    val_main_v29 (F := Ideal) x0 x1 (ix3 b m (bandCol (l, n)))
      = val_main_v22 (F := Ideal) x0 x1
          (ix3 b m (⟨n.val + 2 * l.val, by have := n.isLt; have := l.isLt; omega⟩ : Fin 310)) := by
  have hl := l.isLt
  have hn := n.isLt
  unfold val_main_v29
  generalize val_main_v22 (F := Ideal) x0 x1 = y
  have hidx := gatherIdx_toInt (bandCol (l, n))
  generalize val_main_v28 (F := Ideal) = idx at hidx
  show Host.gather gd y idx (ix3 b m (bandCol (l, n))) = _
  rw [gather_apply y idx b m (bandCol (l, n))]
  refine congrArg y (congrArg (fun k : Fin 310 => ix3 b m k) (Fin.ext ?_))
  show min (idx (ix2 (bandCol (l, n)) 0)).toInt.toNat 309 = n.val + 2 * l.val
  rw [hidx, bandCol_val]
  omega

/-- THE REFERENCE IS `G`. -/
theorem reference_eq
    (x0 : (⟨Cert.ReferenceIdeal.S32x28x256x256, .f32⟩ : BufTy).Contents (Elt Ideal))
    (x1 : (⟨Cert.ReferenceIdeal.S28x256x256, .f32⟩ : BufTy).Contents (Elt Ideal)) :
    Cert.ReferenceIdeal.Read.val_main_v34 (F := Ideal) x0 x1 = Cert.Spec.G x0 x1 := by
  funext i
  obtain ⟨b, l, m, n, rfl⟩ : ∃ (b : Fin 32) (l : Fin 28) (m : Fin 256) (n : Fin 256), i = ix4 b l m n :=
    ⟨i 0, i 1, i 2, i 3, eq_ix4 i⟩
  rw [Cert.Spec.G_ix4, result_apply, gathered_apply, measurement_apply]
  rfl

end Cert.RefBridge

end
-- ==== Proof.lean ====
/-
  The coded-aperture encode/decode kernel against its jnp reference, at the ideal instance.

  Both programs compute, for batch `b`, band `l`, row `m`, column `n`,

      out (b,l,m,n) = meas_{b,m} (n + 2 l) * phi (l,m,n),
      meas_{b,m} c  = sum over the bands l' with 2 l' <= c and c - 2 l' < 256 of x (b,l',m,c - 2 l') * phi (l',m,c - 2 l')

  (`Cert.Spec.G`). The kernel builds each row's measurement in a scratch canvas, one band at a time in band order, and reads
  it back through shifted windows; the reference scatters the masked cube into a zero array with an accumulating scatter
  and gathers it back. The two are one function of the arguments because a finite sum in the extended reals does not
  depend on its order or grouping and adding zero changes nothing: the precondition is never opened.
  The kernel's side is `Cert.KernelBridge.run` (over the generated frame run and value leg), the reference's side is
  the generated run with `Cert.RefBridge.reference_eq`. The three frames are the generated ones; the idealization rewrote
  nothing, so `preserves` is `True`.
-/
import proofs.«174060_j27281632264566_1_alg».proof.Defs
import proofs.«174060_j27281632264566_1_alg».proof.Proof.Gen.Kernel
import proofs.«174060_j27281632264566_1_alg».proof.Proof.Gen.Kernel.Skeleton
import proofs.«174060_j27281632264566_1_alg».proof.Proof.Gen.Kernel.Launch
import proofs.«174060_j27281632264566_1_alg».proof.Proof.Gen.Kernel.Points
import proofs.«174060_j27281632264566_1_alg».proof.Proof.Gen.Kernel.Frame
import proofs.«174060_j27281632264566_1_alg».proof.Proof.Gen.KernelIdeal
import proofs.«174060_j27281632264566_1_alg».proof.Proof.Gen.KernelIdeal.Skeleton
import proofs.«174060_j27281632264566_1_alg».proof.Proof.Gen.KernelIdeal.Launch
import proofs.«174060_j27281632264566_1_alg».proof.Proof.Gen.KernelIdeal.Points
import proofs.«174060_j27281632264566_1_alg».proof.Proof.Gen.KernelIdeal.Frame
import proofs.«174060_j27281632264566_1_alg».proof.Proof.Gen.ReferenceIdeal
import proofs.«174060_j27281632264566_1_alg».proof.Proof.Gen.Pre_finite_inputs
import proofs.«174060_j27281632264566_1_alg».proof.Proof.Gen.KernelIdeal.Value
import proofs.«174060_j27281632264566_1_alg».proof.Proof.Gen.ReferenceIdeal.Run
import proofs.«174060_j27281632264566_1_alg».proof.Proof.Gen.ReferenceIdeal.Read
import proofs.«174060_j27281632264566_1_alg».proof.Proof.KernelValue
import proofs.«174060_j27281632264566_1_alg».proof.Proof.RefBridge
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference has no kernel: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Both runs end with the result array at `G` of the argument arrays, and the arguments agree. -/
theorem algebraic : Cert.algebraic_KernelIdeal_ReferenceIdeal := by
  intro m ρ m' ρ' _ hagree
  refine ⟨_, Cert.KernelBridge.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v34_eq, Cert.RefBridge.reference_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
